-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_arg10 : FVec F S128x40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x40 .f32) (main_arg9 : FVec F S40 .f32) (main_arg10 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x40 .f32) (main_arg9 : FVec F S40 .f32) (main_arg10 : FVec F S128x40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 80
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x40, .f32⟩
  | .hbm, ⟨79, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S1x40, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x40, .f32⟩
  | 9 => ⟨S40, .f32⟩
  | 10 => ⟨S128x40, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S_, .f32⟩
  | 99 => ⟨S800000, .f32⟩
  | 100 => ⟨S_, .f32⟩
  | 101 => ⟨S50000, .f32⟩
  | 102 => ⟨S800000x1, .i32⟩
  | 103 => ⟨S50000, .f32⟩
  | 104 => ⟨S_, .f32⟩
  | 105 => ⟨S_, .f32⟩
  | 106 => ⟨S50000, .f32⟩
  | 107 => ⟨S50000, .f32⟩
  | 108 => ⟨S50000x1, .f32⟩
  | 109 => ⟨S50000x128, .f32⟩
  | 110 => ⟨S50000x128, .f32⟩
  | 111 => ⟨S50000x40, .f32⟩
  | 112 => ⟨S1x40, .f32⟩
  | 113 => ⟨S50000x40, .f32⟩
  | 114 => ⟨S50000x40, .f32⟩
  | 115 => ⟨S50000x40, .f32⟩
  | 116 => ⟨S50000x40, .f32⟩
  | 117 => ⟨S_, .f32⟩
  | 118 => ⟨S50000x40, .f32⟩
  | 119 => ⟨S50000x40, .f32⟩
  | 120 => ⟨S_, .f32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x40, .f32⟩
  | 127 => ⟨S50000x40, .f32⟩
  | _ => ⟨S50000x128, .f32⟩

abbrev hbmTy0_1 (i : Nat) : BufTy := match i % 128 with
  | 0 => ⟨S50000x40, .f32⟩
  | 1 => ⟨S_, .f32⟩
  | 2 => ⟨S50000, .f32⟩
  | 3 => ⟨S50000x1, .f32⟩
  | 4 => ⟨S50000x1, .f32⟩
  | 5 => ⟨S50000x40, .f32⟩
  | 6 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call3_cst : Ref sig .tc := ⟨.hbm, 82, rfl⟩
abbrev main_call3_v0 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_call4_v0 : Ref sig .tc := ⟨.hbm, 105, rfl⟩
abbrev main_call4_v1 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call5_cst : Ref sig .tc := ⟨.hbm, 117, rfl⟩
abbrev main_call5_v0 : Ref sig .tc := ⟨.hbm, 118, rfl⟩
abbrev main_v78 : Ref sig .tc := ⟨.hbm, 119, rfl⟩
abbrev main_call6_cst : Ref sig .tc := ⟨.hbm, 120, rfl⟩
abbrev main_call6_v0 : Ref sig .tc := ⟨.hbm, 121, rfl⟩
abbrev main_call6_cst_0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_v6 : Ref sig .tc := ⟨.hbm, 128, rfl⟩
abbrev main_call6_cst_1 : Ref sig .tc := ⟨.hbm, 129, rfl⟩
abbrev main_call6_v7 : Ref sig .tc := ⟨.hbm, 130, rfl⟩
abbrev main_call6_v8 : Ref sig .tc := ⟨.hbm, 131, rfl⟩
abbrev main_call6_v9 : Ref sig .tc := ⟨.hbm, 132, rfl⟩
abbrev main_call6_v10 : Ref sig .tc := ⟨.hbm, 133, rfl⟩
abbrev main_v79 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with every buffer named.

  The program is three kernel launches among stretches of host operations. Its run ends with every buffer that
  outlives @main at the contents `W8`: the fold, from the launch memory, of each host stretch's operations and of each
  launch's write-backs. In particular the result buffer ends at `W8` read at it, and each argument as launched.
-/
import proofs.«120409_j69363721831026_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

/-- The run with the result buffer and the arguments named. -/
theorem run_named : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c main_v53 (by decide),
     (h c main_arg0 (by decide)).trans (W8_main_arg0 m ρ c),
     (h c main_arg1 (by decide)).trans (W8_main_arg1 m ρ c),
     (h c main_arg2 (by decide)).trans (W8_main_arg2 m ρ c),
     (h c main_arg3 (by decide)).trans (W8_main_arg3 m ρ c),
     (h c main_arg4 (by decide)).trans (W8_main_arg4 m ρ c),
     (h c main_arg5 (by decide)).trans (W8_main_arg5 m ρ c),
     (h c main_arg6 (by decide)).trans (W8_main_arg6 m ρ c),
     (h c main_arg7 (by decide)).trans (W8_main_arg7 m ρ c),
     (h c main_arg8 (by decide)).trans (W8_main_arg8 m ρ c),
     (h c main_arg9 (by decide)).trans (W8_main_arg9 m ρ c),
     (h c main_arg10 (by decide)).trans (W8_main_arg10 m ρ c)⟩)
    (run_all m ρ)

end Cert.KernelIdeal.Whole

end
-- ==== Proof.Spec.lean ====
/-
  The mathematics of a three-layer mean-aggregation graph network, as functions on the extended reals.

  One layer sends a node's aggregated neighbour row `mr` and its own row `fr` (each of length 128) to
  `max (mr · Wl + fr · Wr + b) 0`, column by column; the last layer is followed by a row-wise log-softmax written as
  the programs compute it (subtract the row maximum, then the logarithm of the sum of exponentials). The neighbour row of
  node `r` is the message sum `agg h` at `r` divided by the node's clipped degree `d r`.

  Two laws join the two programs. A program that multiplies by the reciprocal `1 / d` agrees with one that divides by
  `d` as soon as `1 ≤ d`: then `d ≠ 0`, both are the product with `d⁻¹`, for every extended real numerator (at
  `d = 0` they would differ: `0 · ⊤ = 0` against `0 / 0 = ⊥`). And the three summands of a layer entry may be added in
  either order, addition on the extended reals being commutative and associative. Neither law needs finiteness.
-/
import Idealize.ShloMosaic.PureOps.Ideal
import Idealize.ShloMosaic.Lib.ValueIdx

noncomputable section

namespace Cert.Sage

open Idealize.ShloMosaic Idealize.ShloMosaic.ValueIdx

/-- Zero, as the programs spell it. -/
abbrev z : EReal := Ideal.ofBits .f32 0x00000000#32
/-- Minus infinity, as the programs spell it. -/
abbrev ninf : EReal := Ideal.ofBits .f32 0xFF800000#32
/-- One, as the programs spell it. -/
abbrev one : EReal := Ideal.ofBits .f32 0x3F800000#32

/-- One entry of a layer before the activation: neighbour row times `Wl`, plus own row times `Wr`, plus the bias. -/
def lin {C : ℕ} (mr fr : Fin 128 → EReal) (Wl Wr : (⟨2, ![128, C]⟩ : Shape).Idx → EReal) (b : Fin C → EReal)
    (c : Fin C) : EReal :=
  (∑ k : Fin 128, mr k * Wl (ix2 k c) + ∑ k : Fin 128, fr k * Wr (ix2 k c)) + b c

/-- The same entry with the bias added before the own-row product, as a reference written `mean @ Wl + b + x @ Wr`
    adds it. -/
theorem lin_bias_first {C : ℕ} (mr fr : Fin 128 → EReal) (Wl Wr : (⟨2, ![128, C]⟩ : Shape).Idx → EReal)
    (b : Fin C → EReal) (c : Fin C) :
    (∑ k : Fin 128, mr k * Wl (ix2 k c) + b c) + ∑ k : Fin 128, fr k * Wr (ix2 k c) = lin mr fr Wl Wr b c :=
  add_right_comm _ _ _

/-- The activation: the maximum with zero. -/
def act (x : EReal) : EReal := max x z

/-- Entry `(r, c)` of a layer over `R` nodes: the activation of the linear entry of row `r`. -/
def layerAt {R C : ℕ} (mean feat : (⟨2, ![R, 128]⟩ : Shape).Idx → EReal) (Wl Wr : (⟨2, ![128, C]⟩ : Shape).Idx → EReal)
    (b : Fin C → EReal) (r : Fin R) (c : Fin C) : EReal :=
  act (lin (fun k => mean (ix2 r k)) (fun k => feat (ix2 r k)) Wl Wr b c)

/-- A layer as an array. -/
def layer {R C : ℕ} (mean feat : (⟨2, ![R, 128]⟩ : Shape).Idx → EReal) (Wl Wr : (⟨2, ![128, C]⟩ : Shape).Idx → EReal)
    (b : Fin C → EReal) : (⟨2, ![R, C]⟩ : Shape).Idx → EReal :=
  fun i => layerAt mean feat Wl Wr b (i 0) (i 1)

theorem layer_ix2 {R C : ℕ} (mean feat : (⟨2, ![R, 128]⟩ : Shape).Idx → EReal)
    (Wl Wr : (⟨2, ![128, C]⟩ : Shape).Idx → EReal) (b : Fin C → EReal) (r : Fin R) (c : Fin C) :
    layer mean feat Wl Wr b (ix2 r c) = layerAt mean feat Wl Wr b r c := rfl

/-- A layer entry only reads row `r` of its two feature arrays: two pairs of arrays with the same rows there give the
    same entry (a block of rows of an array against the array itself). -/
theorem layerAt_congr {R R' C : ℕ} (mean feat : (⟨2, ![R, 128]⟩ : Shape).Idx → EReal)
    (mean' feat' : (⟨2, ![R', 128]⟩ : Shape).Idx → EReal) (Wl Wr : (⟨2, ![128, C]⟩ : Shape).Idx → EReal)
    (b : Fin C → EReal) (r : Fin R) (r' : Fin R') (c : Fin C)
    (hm : ∀ k : Fin 128, mean (ix2 r k) = mean' (ix2 r' k)) (hf : ∀ k : Fin 128, feat (ix2 r k) = feat' (ix2 r' k)) :
    layerAt mean feat Wl Wr b r c = layerAt mean' feat' Wl Wr b r' c := by
  unfold layerAt
  rw [show (fun k => mean (ix2 r k)) = fun k => mean' (ix2 r' k) from funext hm,
    show (fun k => feat (ix2 r k)) = fun k => feat' (ix2 r' k) from funext hf]

/-- The row maximum as the programs take it: the fold of `max` from minus infinity, once more against minus infinity. -/
def rowMax (h : Fin 40 → EReal) : EReal := max ninf ((Finset.univ : Finset (Fin 40)).fold max ninf h)

/-- Log-softmax of a row of 40 scores at column `c`, as both programs compute it. -/
def lsm (h : Fin 40 → EReal) (c : Fin 40) : EReal :=
  (h c - rowMax h) - Ideal.log (∑ k : Fin 40, Ideal.exp (h k - rowMax h))

/-- Entry `(r, c)` of the last layer: the log-softmax of row `r` of the layer. -/
def lastAt {R : ℕ} (mean feat : (⟨2, ![R, 128]⟩ : Shape).Idx → EReal) (Wl Wr : (⟨2, ![128, 40]⟩ : Shape).Idx → EReal)
    (b : Fin 40 → EReal) (r : Fin R) (c : Fin 40) : EReal :=
  lsm (fun q => layerAt mean feat Wl Wr b r q) c

/-- The last layer as an array. -/
def last {R : ℕ} (mean feat : (⟨2, ![R, 128]⟩ : Shape).Idx → EReal) (Wl Wr : (⟨2, ![128, 40]⟩ : Shape).Idx → EReal)
    (b : Fin 40 → EReal) : (⟨2, ![R, 40]⟩ : Shape).Idx → EReal :=
  fun i => lastAt mean feat Wl Wr b (i 0) (i 1)

theorem last_ix2 {R : ℕ} (mean feat : (⟨2, ![R, 128]⟩ : Shape).Idx → EReal)
    (Wl Wr : (⟨2, ![128, 40]⟩ : Shape).Idx → EReal) (b : Fin 40 → EReal) (r : Fin R) (c : Fin 40) :
    last mean feat Wl Wr b (ix2 r c) = lastAt mean feat Wl Wr b r c := rfl

theorem lastAt_congr {R R' : ℕ} (mean feat : (⟨2, ![R, 128]⟩ : Shape).Idx → EReal)
    (mean' feat' : (⟨2, ![R', 128]⟩ : Shape).Idx → EReal) (Wl Wr : (⟨2, ![128, 40]⟩ : Shape).Idx → EReal)
    (b : Fin 40 → EReal) (r : Fin R) (r' : Fin R') (c : Fin 40)
    (hm : ∀ k : Fin 128, mean (ix2 r k) = mean' (ix2 r' k)) (hf : ∀ k : Fin 128, feat (ix2 r k) = feat' (ix2 r' k)) :
    lastAt mean feat Wl Wr b r c = lastAt mean' feat' Wl Wr b r' c := by
  unfold lastAt
  rw [show (fun q => layerAt mean feat Wl Wr b r q) = fun q => layerAt mean' feat' Wl Wr b r' q from
    funext fun q => layerAt_congr mean feat mean' feat' Wl Wr b r r' q hm hf]

/-- Multiplying by the reciprocal of a divisor that is at least one is dividing by it, for every numerator. -/
theorem mul_recip {x d : EReal} (hd : 1 ≤ d) : x * Ideal.div 1 d = Ideal.div x d := by
  have hne : d ≠ 0 := fun h => by rw [h] at hd; exact absurd hd (by norm_num)
  unfold Ideal.div
  rw [if_neg hne, if_neg hne, one_mul]

/-- The neighbour mean of a feature array: the message sum divided, row by row, by the clipped degree. -/
def meanOf (agg : ((⟨2, ![50000, 128]⟩ : Shape).Idx → EReal) → (⟨2, ![50000, 128]⟩ : Shape).Idx → EReal)
    (d : Fin 50000 → EReal) (h : (⟨2, ![50000, 128]⟩ : Shape).Idx → EReal) :
    (⟨2, ![50000, 128]⟩ : Shape).Idx → EReal :=
  fun i => Ideal.div (agg h i) (d (i 0))

/-- The network: two hidden layers and the log-softmax layer, each over the neighbour mean of the layer before. -/
def net (agg : ((⟨2, ![50000, 128]⟩ : Shape).Idx → EReal) → (⟨2, ![50000, 128]⟩ : Shape).Idx → EReal)
    (d : Fin 50000 → EReal) (x : (⟨2, ![50000, 128]⟩ : Shape).Idx → EReal)
    (Wl0 Wr0 : (⟨2, ![128, 128]⟩ : Shape).Idx → EReal) (b0 : Fin 128 → EReal)
    (Wl1 Wr1 : (⟨2, ![128, 128]⟩ : Shape).Idx → EReal) (b1 : Fin 128 → EReal)
    (Wl2 Wr2 : (⟨2, ![128, 40]⟩ : Shape).Idx → EReal) (b2 : Fin 40 → EReal) :
    (⟨2, ![50000, 40]⟩ : Shape).Idx → EReal :=
  let h1 := layer (meanOf agg d x) x Wl0 Wr0 b0
  let h2 := layer (meanOf agg d h1) h1 Wl1 Wr1 b1
  last (meanOf agg d h2) h2 Wl2 Wr2 b2

end Cert.Sage

end
-- ==== Proof.HostTerms.lean ====
/-
  The host operations of the idealized kernel program as functions of the arrays.

  From the edge array the program takes the source and destination rows, wraps negative sources, gathers the
  source rows of a feature array and adds them into zeros at the destinations (the message sum), counts the
  destinations the same way (the degree), clips the degree below at one, keeps the reciprocal `1 / max (1, degree)`
  as a column, and multiplies the message sum, row by row, by that column.
-/
import proofs.«120409_j69363721831026_1_alg».proof.Proof.Gen.KernelIdeal
import proofs.«120409_j69363721831026_1_alg».proof.Proof.Spec
import Idealize.ShloMosaic.Lib.ValueLayout
import Idealize.ShloMosaic.Lib.Pipeline.Value

noncomputable section

namespace Cert.KernelIdeal.Host

open Cert.KernelIdeal Cert.KernelIdeal.Facts₀ Cert.KernelIdeal.Facts Idealize.ShloMosaic Idealize.ShloMosaic.ValueIdx

/-- The source row of the edge array. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
/-- The destination row of the edge array. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The message sum of a feature array for given source and destination rows. -/
def aggv (s d : (⟨S800000, .i32⟩ : BufTy).Contents (Elt Ideal)) (h : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The message sum of a feature array for an edge array. -/
def agg (e : (⟨S2x800000, .i32⟩ : BufTy).Contents (Elt Ideal)) (h : S50000x128.Idx → EReal) : S50000x128.Idx → EReal :=
  aggv (src e) (dst e) h

/-- The clipped degree. -/
def degv (e : (⟨S2x800000, .i32⟩ : BufTy).Contents (Elt Ideal)) : S50000.Idx → EReal :=
  maximumf (broadcastInDim S50000 ![] bcast_S_S50000 (constant (F := Ideal) S_ .f32 0x3F800000#32))
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dst e))
      (broadcastInDim S800000 ![] bcast_S_S800000 (constant (F := Ideal) S_ .f32 0x3F800000#32)))

/-- The clipped degree of a node. -/
def deg (e : (⟨S2x800000, .i32⟩ : BufTy).Contents (Elt Ideal)) : Fin 50000 → EReal := fun r => degv e (ix1 r)

/-- The reciprocal of the clipped degree, kept as a column. -/
def inv (e : (⟨S2x800000, .i32⟩ : BufTy).Contents (Elt Ideal)) : S50000x1.Idx → EReal :=
  broadcastInDim S50000x1 ![0] bcast_S50000_S50000x1_0
    (Host.divf (F := Ideal) (broadcastInDim S50000 ![] bcast_S_S50000 (constant (F := Ideal) S_ .f32 0x3F800000#32)) (degv e))

/-- The message sum times the reciprocal column spread over the rows, for given source, destination and column. -/
def meanv (s d : (⟨S800000, .i32⟩ : BufTy).Contents (Elt Ideal)) (iv : S50000x1.Idx → EReal) (h : S50000x128.Idx → EReal) :
    S50000x128.Idx → EReal :=
  mulf (F := Ideal) (φ := .f32) (aggv s d h) (broadcastInDim S50000x128 ![0, 1] bcast_S50000x1_S50000x128_0_1 iv)

end Cert.KernelIdeal.Host

end
-- ==== Proof.HostLawsA.lean ====
/-
  The clipped degree `max (1, degree)` is at least one, and the reciprocal column the kernel program keeps reads, at row
  `r`, the quotient `1 / max (1, degree r)`.
-/
import proofs.«120409_j69363721831026_1_alg».proof.Proof.HostTerms

noncomputable section

namespace Cert.KernelIdeal.Host

open Cert.KernelIdeal Cert.KernelIdeal.Facts₀ Cert.KernelIdeal.Facts Idealize.ShloMosaic Idealize.ShloMosaic.ValueIdx

/-- The literal one is the number one. -/
theorem one_eq : Ideal.ofBits .f32 0x3F800000#32 = 1 := by simp [Ideal.ofBits, Ideal.ieee, -EReal.coe_mul]; norm_num

/-- The maximum of the all-ones vector with any vector is at least one everywhere. -/
theorem one_le_max (y : S50000.Idx → EReal) (i : S50000.Idx) :
    1 ≤ maximumf (F := Ideal) (φ := .f32) (broadcastInDim S50000 ![] bcast_S_S50000 (constant (F := Ideal) S_ .f32 0x3F800000#32)) y i := by
  show (1 : EReal) ≤ max (Ideal.ofBits .f32 0x3F800000#32) (y i)
  rw [one_eq]
  exact le_max_left _ _

/-- The clipped degree is at least one. -/
theorem one_le_deg (e : (⟨S2x800000, .i32⟩ : BufTy).Contents (Elt Ideal)) (r : Fin 50000) : 1 ≤ deg e r :=
  one_le_max _ (ix1 r)

/-- The quotient of the all-ones vector by any vector, kept as a column, at row `r`. -/
theorem inv_col (y : S50000.Idx → EReal) (r : Fin 50000) (u : Fin 1) :
    broadcastInDim S50000x1 ![0] bcast_S50000_S50000x1_0
        (Host.divf (F := Ideal) (φ := .f32) (broadcastInDim S50000 ![] bcast_S_S50000 (constant (F := Ideal) S_ .f32 0x3F800000#32)) y) (ix2 r u)
      = Ideal.div 1 (y (ix1 r)) :=
  (broadcastInDim_apply ![0] bcast_S50000_S50000x1_0
      (Host.divf (F := Ideal) (φ := .f32) (broadcastInDim S50000 ![] bcast_S_S50000 (constant (F := Ideal) S_ .f32 0x3F800000#32)) y) (ix2 r u) (ix1 r) (fun a => match a with
      | ⟨0, _⟩ => by show r.val = if (50000 : Nat) = 1 then 0 else r.val; rw [if_neg (by decide)])).trans
    (congrArg (fun t : EReal => Ideal.div t (y (ix1 r))) one_eq)

/-- The reciprocal column at row `r`. -/
theorem inv_apply (e : (⟨S2x800000, .i32⟩ : BufTy).Contents (Elt Ideal)) (r : Fin 50000) (u : Fin 1) :
    inv e (ix2 r u) = Ideal.div 1 (deg e r) :=
  inv_col (degv e) r u

end Cert.KernelIdeal.Host

end
-- ==== Proof.HostLawsB.lean ====
/-
  The kernel program's neighbour mean is the specification's: the product of the message sum with the reciprocal column
  `1 / max (1, degree)`, spread over the rows, is the quotient by the clipped degree, because that divisor is at least one.
  And a bias vector laid out as one row reads its entries.
-/
import proofs.«120409_j69363721831026_1_alg».proof.Proof.HostTerms
import proofs.«120409_j69363721831026_1_alg».proof.Proof.HostLawsA

noncomputable section

namespace Cert.KernelIdeal.Host

open Cert.KernelIdeal Cert.KernelIdeal.Facts₀ Cert.KernelIdeal.Facts Idealize.ShloMosaic Idealize.ShloMosaic.ValueIdx

/-- A product with a column spread over the rows, at `(r, c)`. -/
theorem mulcol (A : S50000x128.Idx → EReal) (iv : S50000x1.Idx → EReal) (r : Fin 50000) (c : Fin 128) :
    mulf (F := Ideal) (φ := .f32) A (broadcastInDim S50000x128 ![0, 1] bcast_S50000x1_S50000x128_0_1 iv) (ix2 r c)
      = A (ix2 r c) * iv (ix2 r (0 : Fin 1)) :=
  congrArg (fun t : EReal => A (ix2 r c) * t)
    (broadcastInDim_apply ![0, 1] bcast_S50000x1_S50000x128_0_1 iv (ix2 r c) (ix2 r (0 : Fin 1)) (fun a => match a with
      | ⟨0, _⟩ => by show r.val = if (50000 : Nat) = 1 then 0 else r.val; rw [if_neg (by decide)]
      | ⟨1, _⟩ => by show (0 : Nat) = if (1 : Nat) = 1 then 0 else c.val; rw [if_pos rfl]))

/-- The kernel program's mean at `(r, c)`: the message sum divided by the clipped degree. -/
theorem meanv_apply (e : (⟨S2x800000, .i32⟩ : BufTy).Contents (Elt Ideal)) (h : S50000x128.Idx → EReal)
    (r : Fin 50000) (c : Fin 128) :
    meanv (src e) (dst e) (inv e) h (ix2 r c) = Ideal.div (agg e h (ix2 r c)) (deg e r) :=
  (mulcol (aggv (src e) (dst e) h) (inv e) r c).trans
    ((congrArg (fun t : EReal => aggv (src e) (dst e) h (ix2 r c) * t) (inv_apply e r 0)).trans
      (Cert.Sage.mul_recip (one_le_deg e r)))

/-- The specification's mean at `(r, c)`. -/
theorem meanOf_ix2 (g : (S50000x128.Idx → EReal) → S50000x128.Idx → EReal) (d : Fin 50000 → EReal)
    (h : S50000x128.Idx → EReal) (r : Fin 50000) (c : Fin 128) :
    Cert.Sage.meanOf g d h (ix2 r c) = Ideal.div (g h (ix2 r c)) (d r) := rfl

/-- The kernel program's mean is the specification's. -/
theorem meanv_eq (e : (⟨S2x800000, .i32⟩ : BufTy).Contents (Elt Ideal)) (h : S50000x128.Idx → EReal) :
    meanv (src e) (dst e) (inv e) h = Cert.Sage.meanOf (agg e) (deg e) h :=
  funext fun i => by
    obtain ⟨r, c, rfl⟩ : ∃ (r : Fin 50000) (c : Fin 128), i = ix2 r c := ⟨i 0, i 1, eq_ix2 i⟩
    exact (meanv_apply e h r c).trans (meanOf_ix2 (agg e) (deg e) h r c).symm

/-- A bias vector laid out as one row reads its entries. -/
theorem bias_row128 (b : S128.Idx → EReal) :
    (fun q : Fin 128 => shapeCast S1x128 b shapeCasts_S128_S1x128 (ix2 (0 : Fin 1) q)) = fun q => b (ix1 q) :=
  funext fun q => shapeCast_a_1a_apply b shapeCasts_S128_S1x128 0 q
theorem bias_row40 (b : S40.Idx → EReal) :
    (fun q : Fin 40 => shapeCast S1x40 b shapeCasts_S40_S1x40 (ix2 (0 : Fin 1) q)) = fun q => b (ix1 q) :=
  funext fun q => shapeCast_a_1a_apply b shapeCasts_S40_S1x40 0 q

end Cert.KernelIdeal.Host

end
-- ==== Proof.LibAfterAppend.lean ====
/-
  Folding a line of host operations that is given as two lines joined.

  The buffer contents after `l₁ ++ l₂` are those after `l₂` from the contents after `l₁`; and a property that
  holds of every operation of both lines holds of every operation of the joined line. With these a long @main
  can be cut into stretches, each folded and read by itself. A buffer that no operation of a line writes keeps its
  contents through it; `not_written` decides that side condition for a literal line.
-/
import Idealize.ShloMosaic.Lib.StableHlo.Run

namespace Cert.Lib.AfterAppend

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- A buffer that none of a line's operations writes keeps its contents through the line. -/
theorem after_kept (ops : List (HloOp τ sig Val)) (V : Valuation τ sig Val) (b : Ref sig .tc)
    (h : ∀ op ∈ ops, Proc.devRef (τ := τ) .tc b ∉ op.writes) :
    after ops V (Proc.devRef .tc b) = V (Proc.devRef .tc b) :=
  after_of_forall_not_mem ops V h

end Cert.Lib.AfterAppend

/-- Closes `∀ op ∈ ops, Proc.devRef .tc b ∉ op.writes` for a literal line of the builders' operations, each of which writes
    one buffer, none of them `b`: the membership is decided operation by operation. -/
macro "not_written" : tactic =>
  `(tactic| (refine List.forall_iff_forall_mem.mp ?_
             simp only [List.Forall, Idealize.ShloMosaic.StableHlo.nullary_writes, Idealize.ShloMosaic.StableHlo.unary_writes,
               Idealize.ShloMosaic.StableHlo.binary_writes, Idealize.ShloMosaic.StableHlo.ternary_writes,
               Idealize.ShloMosaic.StableHlo.reshape_writes, Finset.mem_singleton]
             repeat' apply And.intro
             all_goals exact Idealize.ShloMosaic.StableHlo.devRef_ne_of_ne (by decide)))
-- ==== Proof.PrefixMean.lean ====
/-
  What the first kernel launch finds as the first layer's neighbour mean: the operations before the launch (the slices of
  the edge array, the degree count and clip, the reciprocal column, the gather, the scatter-add and the product) folded
  from the launch memory.
-/
import proofs.«120409_j69363721831026_1_alg».proof.Proof.Gen.KernelIdeal.Frame
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first layer's neighbour mean, as the program computes it. -/
theorem at_v23 (c : Dev nD) : W3 m ρ c (Proc.devRef .tc main_v23)
    = Host.meanv (Host.src (m ((c.tc : Thread nD τ).loc main_arg1))) (Host.dst (m ((c.tc : Thread nD τ).loc main_arg1))) (Host.inv (m ((c.tc : Thread nD τ).loc main_arg1))) (m ((c.tc : Thread nD τ).loc main_arg0)) := by
  show StableHlo.after (hostOps0_2 (F := Ideal)) (StableHlo.after (hostOps0_1 (F := Ideal)) (StableHlo.after (hostOps0 (F := Ideal)) (W0 m ρ c))) (Proc.devRef .tc main_v23) = _
  simp only [hostOps0, hostOps0_1, hostOps0_2]
  after_results_simp
  rfl

end Cert.KernelIdeal.Prefix

end
-- ==== Proof.PrefixRow.lean ====
/-
  What the first kernel launch finds as the first bias row: the reshape of the bias vector, folded from the launch memory.
-/
import proofs.«120409_j69363721831026_1_alg».proof.Proof.Gen.KernelIdeal.Frame
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first bias laid out as a row. -/
theorem at_v24 (c : Dev nD) : W3 m ρ c (Proc.devRef .tc main_v24)
    = shapeCast S1x128 (m ((c.tc : Thread nD τ).loc main_arg3)) shapeCasts_S128_S1x128 := by
  show StableHlo.after (hostOps0_2 (F := Ideal)) (StableHlo.after (hostOps0_1 (F := Ideal)) (StableHlo.after (hostOps0 (F := Ideal)) (W0 m ρ c))) (Proc.devRef .tc main_v24) = _
  simp only [hostOps0, hostOps0_1, hostOps0_2]
  after_results_simp
  rfl

end Cert.KernelIdeal.Prefix

end
-- ==== Proof.PrefixSrc.lean ====
/-
  The source row of the edge array as the operations before the first launch leave it.
-/
import proofs.«120409_j69363721831026_1_alg».proof.Proof.Gen.KernelIdeal.Frame
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The source row. -/
theorem at_v1 (c : Dev nD) : W3 m ρ c (Proc.devRef .tc main_v1) = Host.src (m ((c.tc : Thread nD τ).loc main_arg1)) := by
  show StableHlo.after (hostOps0_2 (F := Ideal)) (StableHlo.after (hostOps0_1 (F := Ideal)) (StableHlo.after (hostOps0 (F := Ideal)) (W0 m ρ c))) (Proc.devRef .tc main_v1) = _
  simp only [hostOps0, hostOps0_1, hostOps0_2]
  after_results_simp
  rfl

end Cert.KernelIdeal.Prefix

end
-- ==== Proof.PrefixDst.lean ====
/-
  The destination row of the edge array as the operations before the first launch leave it.
-/
import proofs.«120409_j69363721831026_1_alg».proof.Proof.Gen.KernelIdeal.Frame
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The destination row. -/
theorem at_v3 (c : Dev nD) : W3 m ρ c (Proc.devRef .tc main_v3) = Host.dst (m ((c.tc : Thread nD τ).loc main_arg1)) := by
  show StableHlo.after (hostOps0_2 (F := Ideal)) (StableHlo.after (hostOps0_1 (F := Ideal)) (StableHlo.after (hostOps0 (F := Ideal)) (W0 m ρ c))) (Proc.devRef .tc main_v3) = _
  simp only [hostOps0, hostOps0_1, hostOps0_2]
  after_results_simp
  rfl

end Cert.KernelIdeal.Prefix

end
-- ==== Proof.PrefixInv.lean ====
/-
  The reciprocal column `1 / max (1, degree)` as the operations before the first launch leave it: the degree count, the
  clip (an inlined function of three operations) and the quotient, folded from the launch memory.
-/
import proofs.«120409_j69363721831026_1_alg».proof.Proof.Gen.KernelIdeal.Frame
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The reciprocal column. -/
theorem at_v11 (c : Dev nD) : W3 m ρ c (Proc.devRef .tc main_v11) = Host.inv (m ((c.tc : Thread nD τ).loc main_arg1)) := by
  show StableHlo.after (hostOps0_2 (F := Ideal)) (StableHlo.after (hostOps0_1 (F := Ideal)) (StableHlo.after (hostOps0 (F := Ideal)) (W0 m ρ c))) (Proc.devRef .tc main_v11) = _
  simp only [hostOps0, hostOps0_1, hostOps0_2]
  after_results_simp
  rfl

end Cert.KernelIdeal.Prefix

end
-- ==== Proof.PrefixKept.lean ====
/-
  The argument arrays are untouched by the operations before the first launch: none of them writes an argument's buffer.
-/
import proofs.«120409_j69363721831026_1_alg».proof.Proof.Gen.KernelIdeal.Frame
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A buffer none of the operations before the first launch writes holds its launch contents. -/
theorem kept (c : Dev nD) (b : Ref sig .tc)
    (h0 : ∀ op ∈ (hostOps0 (F := Ideal)), Proc.devRef (τ := τ) .tc b ∉ op.writes)
    (h1 : ∀ op ∈ (hostOps0_1 (F := Ideal)), Proc.devRef (τ := τ) .tc b ∉ op.writes)
    (h2 : ∀ op ∈ (hostOps0_2 (F := Ideal)), Proc.devRef (τ := τ) .tc b ∉ op.writes) :
    W3 m ρ c (Proc.devRef .tc b) = m ((c.tc : Thread nD τ).loc b) :=
  (Cert.Lib.AfterAppend.after_kept _ _ b h2).trans
    ((Cert.Lib.AfterAppend.after_kept _ _ b h1).trans (Cert.Lib.AfterAppend.after_kept _ _ b h0))

theorem at_arg0 (c : Dev nD) : W3 m ρ c (Proc.devRef .tc main_arg0) = (m ((c.tc : Thread nD τ).loc main_arg0)) := kept m ρ c main_arg0 (by not_written) (by not_written) (by not_written)
theorem at_arg2 (c : Dev nD) : W3 m ρ c (Proc.devRef .tc main_arg2) = (m ((c.tc : Thread nD τ).loc main_arg2)) := kept m ρ c main_arg2 (by not_written) (by not_written) (by not_written)
theorem at_arg4 (c : Dev nD) : W3 m ρ c (Proc.devRef .tc main_arg4) = (m ((c.tc : Thread nD τ).loc main_arg4)) := kept m ρ c main_arg4 (by not_written) (by not_written) (by not_written)
theorem at_arg5 (c : Dev nD) : W3 m ρ c (Proc.devRef .tc main_arg5) = (m ((c.tc : Thread nD τ).loc main_arg5)) := kept m ρ c main_arg5 (by not_written) (by not_written) (by not_written)
theorem at_arg6 (c : Dev nD) : W3 m ρ c (Proc.devRef .tc main_arg6) = (m ((c.tc : Thread nD τ).loc main_arg6)) := kept m ρ c main_arg6 (by not_written) (by not_written) (by not_written)
theorem at_arg7 (c : Dev nD) : W3 m ρ c (Proc.devRef .tc main_arg7) = (m ((c.tc : Thread nD τ).loc main_arg7)) := kept m ρ c main_arg7 (by not_written) (by not_written) (by not_written)
theorem at_arg8 (c : Dev nD) : W3 m ρ c (Proc.devRef .tc main_arg8) = (m ((c.tc : Thread nD τ).loc main_arg8)) := kept m ρ c main_arg8 (by not_written) (by not_written) (by not_written)
theorem at_arg9 (c : Dev nD) : W3 m ρ c (Proc.devRef .tc main_arg9) = (m ((c.tc : Thread nD τ).loc main_arg9)) := kept m ρ c main_arg9 (by not_written) (by not_written) (by not_written)
theorem at_arg10 (c : Dev nD) : W3 m ρ c (Proc.devRef .tc main_arg10) = (m ((c.tc : Thread nD τ).loc main_arg10)) := kept m ρ c main_arg10 (by not_written) (by not_written) (by not_written)

end Cert.KernelIdeal.Prefix

end
-- ==== Proof.Between.lean ====
/-
  The host operations between the kernel launches, from any buffer contents.

  Between two launches the program wraps the sources again, gathers the rows of the layer just computed, adds them
  into zeros at the destinations, multiplies by the reciprocal column, and lays the next bias out as a row. Whatever the
  buffers hold when such a stretch begins, it leaves the neighbour mean of the layer's result in one buffer and the
  bias row in another, and touches none of the buffers it only reads.
-/
import proofs.«120409_j69363721831026_1_alg».proof.Proof.Gen.KernelIdeal.Launch
import proofs.«120409_j69363721831026_1_alg».proof.Proof.HostTerms
import proofs.«120409_j69363721831026_1_alg».proof.Proof.LibAfterAppend
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable (W : Valuation τ sig (Elt Ideal))

/-- Before the second launch: the neighbour mean of the first layer's result. -/
theorem mean1 : StableHlo.after (hostOps1 (F := Ideal)) W (Proc.devRef .tc main_v37)
    = Host.meanv (W (Proc.devRef .tc main_v1)) (W (Proc.devRef .tc main_v3)) (W (Proc.devRef .tc main_v11)) (W (Proc.devRef .tc main_v25)) := by
  simp only [hostOps1]
  after_results_simp
  rfl

/-- Before the second launch: the second bias laid out as a row. -/
theorem bias1 : StableHlo.after (hostOps1 (F := Ideal)) W (Proc.devRef .tc main_v38)
    = shapeCast S1x128 (W (Proc.devRef .tc main_arg6)) shapeCasts_S128_S1x128 := by
  simp only [hostOps1]
  after_results_simp
  rfl

/-- Before the third launch: the neighbour mean of the second layer's result. -/
theorem mean2 : StableHlo.after (hostOps2 (F := Ideal)) W (Proc.devRef .tc main_v51)
    = Host.meanv (W (Proc.devRef .tc main_v1)) (W (Proc.devRef .tc main_v3)) (W (Proc.devRef .tc main_v11)) (W (Proc.devRef .tc main_v39)) := by
  simp only [hostOps2]
  after_results_simp
  rfl

/-- Before the third launch: the third bias laid out as a row. -/
theorem bias2 : StableHlo.after (hostOps2 (F := Ideal)) W (Proc.devRef .tc main_v52)
    = shapeCast S1x40 (W (Proc.devRef .tc main_arg9)) shapeCasts_S40_S1x40 := by
  simp only [hostOps2]
  after_results_simp
  rfl

/-- A buffer the stretch before the second launch does not write keeps its contents. -/
theorem kept1 (b : Ref sig .tc) (h : ∀ op ∈ (hostOps1 (F := Ideal)), Proc.devRef (τ := τ) .tc b ∉ op.writes) :
    StableHlo.after (hostOps1 (F := Ideal)) W (Proc.devRef .tc b) = W (Proc.devRef .tc b) :=
  Cert.Lib.AfterAppend.after_kept _ _ b h
/-- A buffer the stretch before the third launch does not write keeps its contents. -/
theorem kept2 (b : Ref sig .tc) (h : ∀ op ∈ (hostOps2 (F := Ideal)), Proc.devRef (τ := τ) .tc b ∉ op.writes) :
    StableHlo.after (hostOps2 (F := Ideal)) W (Proc.devRef .tc b) = W (Proc.devRef .tc b) :=
  Cert.Lib.AfterAppend.after_kept _ _ b h

theorem kept1_v1 : StableHlo.after (hostOps1 (F := Ideal)) W (Proc.devRef .tc main_v1) = W (Proc.devRef .tc main_v1) := kept1 W main_v1 (by not_written)
theorem kept1_v3 : StableHlo.after (hostOps1 (F := Ideal)) W (Proc.devRef .tc main_v3) = W (Proc.devRef .tc main_v3) := kept1 W main_v3 (by not_written)
theorem kept1_v11 : StableHlo.after (hostOps1 (F := Ideal)) W (Proc.devRef .tc main_v11) = W (Proc.devRef .tc main_v11) := kept1 W main_v11 (by not_written)
theorem kept1_v25 : StableHlo.after (hostOps1 (F := Ideal)) W (Proc.devRef .tc main_v25) = W (Proc.devRef .tc main_v25) := kept1 W main_v25 (by not_written)
theorem kept1_arg5 : StableHlo.after (hostOps1 (F := Ideal)) W (Proc.devRef .tc main_arg5) = W (Proc.devRef .tc main_arg5) := kept1 W main_arg5 (by not_written)
theorem kept1_arg7 : StableHlo.after (hostOps1 (F := Ideal)) W (Proc.devRef .tc main_arg7) = W (Proc.devRef .tc main_arg7) := kept1 W main_arg7 (by not_written)
theorem kept1_arg8 : StableHlo.after (hostOps1 (F := Ideal)) W (Proc.devRef .tc main_arg8) = W (Proc.devRef .tc main_arg8) := kept1 W main_arg8 (by not_written)
theorem kept1_arg9 : StableHlo.after (hostOps1 (F := Ideal)) W (Proc.devRef .tc main_arg9) = W (Proc.devRef .tc main_arg9) := kept1 W main_arg9 (by not_written)
theorem kept1_arg10 : StableHlo.after (hostOps1 (F := Ideal)) W (Proc.devRef .tc main_arg10) = W (Proc.devRef .tc main_arg10) := kept1 W main_arg10 (by not_written)
theorem kept2_v39 : StableHlo.after (hostOps2 (F := Ideal)) W (Proc.devRef .tc main_v39) = W (Proc.devRef .tc main_v39) := kept2 W main_v39 (by not_written)
theorem kept2_arg8 : StableHlo.after (hostOps2 (F := Ideal)) W (Proc.devRef .tc main_arg8) = W (Proc.devRef .tc main_arg8) := kept2 W main_arg8 (by not_written)
theorem kept2_arg10 : StableHlo.after (hostOps2 (F := Ideal)) W (Proc.devRef .tc main_arg10) = W (Proc.devRef .tc main_arg10) := kept2 W main_arg10 (by not_written)

end Cert.KernelIdeal.Between

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.Bodies.lean ====
/-
  The two hidden-layer kernel bodies at one entry of their output block.

  A body loads a block of 5000 rows of the neighbour means and of the features, the two weight matrices and the bias row,
  and stores `max (mean · Wl + feat · Wr + bias) 0`. Rounding the operands to bf16 on the way into the matrix unit is the
  identity on the extended reals, a product into a zero accumulator is the plain sum over the contracted axis, and the
  bias row `[1, 128]` repeated down the block reads its column. So entry `(p, q)` of the stored block is the layer
  entry of row `p` of the two loaded blocks.
-/
import proofs.«120409_j69363721831026_1_alg».proof.Proof.Gen.KernelIdeal.Skeleton
import proofs.«120409_j69363721831026_1_alg».proof.Proof.Spec
import proofs.«120409_j69363721831026_1_alg».proof.Proof.LibPlainMatmul
import Idealize.ShloMosaic.Lib.ValueLayout
import Idealize.ShloMosaic.Lib.Pipeline.Value

noncomputable section

namespace Cert.KernelIdeal.Bodies

open Cert.KernelIdeal Cert.KernelIdeal.Gen Idealize.ShloMosaic Idealize.ShloMosaic.ValueIdx

/-- A product of a block of rows with a weight matrix whose operands were rounded to bf16, into zero, at `(p, q)`. -/
theorem mm128 (x : FVec Ideal S5000x128 .f32) (w : FVec Ideal S128x128 .f32) (p : Fin 5000) (q : Fin 128) :
    matmul dot_S5000x128_S128x128_S5000x128_1_0_0_1_n_n none (truncf .bf16 x bitsLt_bf16_f32) (truncf .bf16 w bitsLt_bf16_f32)
      (constant S5000x128 .f32 0x00000000#32) (ix2 p q) = ∑ k : Fin 128, x (ix2 p k) * w (ix2 k q) :=
  Cert.Lib.PlainMatmul.matmul_zero_apply dot_S5000x128_S128x128_S5000x128_1_0_0_1_n_n rfl rfl rfl rfl rfl rfl none
    (truncf .bf16 x bitsLt_bf16_f32) (truncf .bf16 w bitsLt_bf16_f32) p q

/-- The bias row repeated down the block reads its column. -/
theorem bias128 (b : FVec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- The first layer's body at `(p, q)`. -/
theorem pay0_apply (v0 v3 : FVec Ideal S5000x128 .f32) (v5 v7 : FVec Ideal S128x128 .f32) (v9 : FVec Ideal S1x128 .f32)
    (p : Fin 5000) (q : Fin 128) :
    k0_pay1 (F := Ideal) v0 v3 v5 v7 v9 (ix2 p q)
      = Cert.Sage.layerAt v0 v3 v5 v7 (fun c => v9 (ix2 (0 : Fin 1) c)) p q := by
  unfold k0_pay1
  simp only [shapeCast_self]
  show max ((_ + _) + _) _ = _
  rw [mm128, mm128, bias128]
  rfl

/-- The second layer's body at `(p, q)`. -/
theorem pay1_apply (v0 v3 : FVec Ideal S5000x128 .f32) (v6 v8 : FVec Ideal S128x128 .f32) (v10 : FVec Ideal S1x128 .f32)
    (p : Fin 5000) (q : Fin 128) :
    k1_pay1 (F := Ideal) v0 v3 v6 v8 v10 (ix2 p q)
      = Cert.Sage.layerAt v0 v3 v6 v8 (fun c => v10 (ix2 (0 : Fin 1) c)) p q := by
  unfold k1_pay1
  simp only [shapeCast_self]
  show max ((_ + _) + _) _ = _
  rw [mm128, mm128, bias128]
  rfl

end Cert.KernelIdeal.Bodies

end
-- ==== Proof.Layer0.lean ====
/-
  Layer one's kernel launch as one function of the arrays it finds.

  The launch runs ten grid points; point `t` loads rows `5000 t … 5000 t + 4999` of the neighbour means and of the
  features and the whole of the two weight matrices and of the bias row, and writes back rows `5000 t …` of the result.
  A layer entry reads only its own row of the means and features, so what point `t` writes back is block `t` of the
  layer of the whole arrays; the ten blocks cover the result (row `r` lies in block `r / 5000`), which therefore ends
  holding that layer. All of it at any contents `V` of the buffers when the launch begins.
-/
import proofs.«120409_j69363721831026_1_alg».proof.Proof.Gen.KernelIdeal.Frame
import proofs.«120409_j69363721831026_1_alg».proof.Proof.Bodies
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds: means, features, the two weights, and the bias row's columns. -/
def G (c : Dev nD) : S50000x128.Idx → EReal :=
  Cert.Sage.layer (V c (Pipeline.arrRef spec0 0)) (V c (Pipeline.arrRef spec0 1)) (V c (Pipeline.arrRef spec0 2))
    (V c (Pipeline.arrRef spec0 4)) (fun q => V c (Pipeline.arrRef spec0 3) (ix2 (0 : Fin 1) q))

/-- The printed index maps over the grid: the row-blocked windows sit at block `(t, 0)`, the resident ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Every block row is some point's. -/
theorem idx_onto : ∀ q0 : Fin 10, ∃ t : Fin cfg0.N, t.val = q0.val :=
  (by decide +kernel : ∀ q0 : Fin 10, ∃ t : Fin grid0.N, t.val = q0.val)

set_option maxHeartbeats 2000000 in
/-- WHAT POINT `t` WRITES BACK is block `t` of the layer of the arrays the launch finds. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, ht⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  have hr : t.val * 5000 + p.val < 50000 := by omega
  show k0_pay1 (iblk0 V c 0 t) (iblk0 V c 1 t) (iblk0 V c 2 t) (iblk0 V c 4 t) (iblk0 V c 3 t) (ix2 p q)
    = G V c (((cfg0.win 5).blk t).view.emb (ix2 p q))
  refine (Cert.KernelIdeal.Bodies.pay0_apply (iblk0 V c 0 t) (iblk0 V c 1 t) (iblk0 V c 2 t) (iblk0 V c 4 t) (iblk0 V c 3 t) p q).trans ?_
  -- the result block's entry sits in row 5000 t + p of the array
  have e5 : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [e5]
  unfold G
  rw [Cert.Sage.layer_ix2]
  -- the resident windows' blocks are the arrays themselves
  have w2 : iblk0 V c 2 t = V c (Pipeline.arrRef spec0 2) := by
    funext y
    show V c (Pipeline.arrRef spec0 2) (((cfg0.win 2).blk t).view.emb y) = V c (Pipeline.arrRef spec0 2) y
    have e : ((cfg0.win 2).blk t).view.emb y = y := by
      funext a; apply Fin.ext
      match a with
      | ⟨0, _⟩ => show win0_2.index t (0 : Fin 2) * 128 + 1 * (y 0).val = (y 0).val; omega
      | ⟨1, _⟩ => show win0_2.index t (1 : Fin 2) * 128 + 1 * (y 1).val = (y 1).val; omega
    rw [e]
  have w4 : iblk0 V c 4 t = V c (Pipeline.arrRef spec0 4) := by
    funext y
    show V c (Pipeline.arrRef spec0 4) (((cfg0.win 4).blk t).view.emb y) = V c (Pipeline.arrRef spec0 4) y
    have e : ((cfg0.win 4).blk t).view.emb y = y := by
      funext a; apply Fin.ext
      match a with
      | ⟨0, _⟩ => show win0_4.index t (0 : Fin 2) * 128 + 1 * (y 0).val = (y 0).val; omega
      | ⟨1, _⟩ => show win0_4.index t (1 : Fin 2) * 128 + 1 * (y 1).val = (y 1).val; omega
    rw [e]
  have w3 : iblk0 V c 3 t = V c (Pipeline.arrRef spec0 3) := by
    funext y
    show V c (Pipeline.arrRef spec0 3) (((cfg0.win 3).blk t).view.emb y) = V c (Pipeline.arrRef spec0 3) y
    have e : ((cfg0.win 3).blk t).view.emb y = y := by
      funext a; apply Fin.ext
      match a with
      | ⟨0, _⟩ => show win0_3.index t (0 : Fin 2) * 1 + 1 * (y 0).val = (y 0).val; omega
      | ⟨1, _⟩ => show win0_3.index t (1 : Fin 2) * 128 + 1 * (y 1).val = (y 1).val; omega
    rw [e]
  rw [w2, w4, w3]
  -- the row-blocked windows' blocks hold rows 5000 t … of their arrays
  refine Cert.Sage.layerAt_congr _ _ _ _ _ _ _ p (⟨t.val * 5000 + p.val, hr⟩ : Fin 50000) q (fun k => ?_) (fun k => ?_)
  · show V c (Pipeline.arrRef spec0 0) (((cfg0.win 0).blk t).view.emb (ix2 p k)) = _
    have e : ((cfg0.win 0).blk t).view.emb (ix2 p k) = ix2 (⟨t.val * 5000 + p.val, hr⟩ : Fin 50000) k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    rw [e]
  · show V c (Pipeline.arrRef spec0 1) (((cfg0.win 1).blk t).view.emb (ix2 p k)) = _
    have e : ((cfg0.win 1).blk t).view.emb (ix2 p k) = ix2 (⟨t.val * 5000 + p.val, hr⟩ : Fin 50000) k := by
      funext a; apply Fin.ext
      match a with
      | ⟨0, _⟩ => show win0_1.index t (0 : Fin 2) * 5000 + 1 * p.val = t.val * 5000 + p.val; omega
      | ⟨1, _⟩ => show win0_1.index t (1 : Fin 2) * 128 + 1 * k.val = k.val; omega
    rw [e]

/-- An index of the result is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every index of the result is in the block of the point its row falls in. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e51, _⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the launch is the layer of the arrays the launch finds. -/
theorem final (c : Dev nD) : (dat0 V c).arrAt 5 cfg0.N = G V c :=
  (dat0 V c).arrAt_eq_of_cover 5 (G V c) (fun t _ => flushed_eq V c t) (cover)

end Cert.KernelIdeal.Layer0

end
-- ==== Proof.Layer1.lean ====
/-
  Layer two's kernel launch as one function of the arrays it finds.

  The launch runs ten grid points; point `t` loads rows `5000 t … 5000 t + 4999` of the neighbour means and of the
  features and the whole of the two weight matrices and of the bias row, and writes back rows `5000 t …` of the result.
  A layer entry reads only its own row of the means and features, so what point `t` writes back is block `t` of the
  layer of the whole arrays; the ten blocks cover the result (row `r` lies in block `r / 5000`), which therefore ends
  holding that layer. All of it at any contents `V` of the buffers when the launch begins.
-/
import proofs.«120409_j69363721831026_1_alg».proof.Proof.Gen.KernelIdeal.Frame
import proofs.«120409_j69363721831026_1_alg».proof.Proof.Bodies
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds: means, features, the two weights, and the bias row's columns. -/
def G (c : Dev nD) : S50000x128.Idx → EReal :=
  Cert.Sage.layer (V c (Pipeline.arrRef spec1 0)) (V c (Pipeline.arrRef spec1 1)) (V c (Pipeline.arrRef spec1 2))
    (V c (Pipeline.arrRef spec1 4)) (fun q => V c (Pipeline.arrRef spec1 3) (ix2 (0 : Fin 1) q))

/-- The printed index maps over the grid: the row-blocked windows sit at block `(t, 0)`, the resident ones at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Every block row is some point's. -/
theorem idx_onto : ∀ q0 : Fin 10, ∃ t : Fin cfg1.N, t.val = q0.val :=
  (by decide +kernel : ∀ q0 : Fin 10, ∃ t : Fin grid1.N, t.val = q0.val)

set_option maxHeartbeats 2000000 in
/-- WHAT POINT `t` WRITES BACK is block `t` of the layer of the arrays the launch finds. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, ht⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  have hr : t.val * 5000 + p.val < 50000 := by omega
  show k1_pay1 (iblk1 V c 0 t) (iblk1 V c 1 t) (iblk1 V c 2 t) (iblk1 V c 4 t) (iblk1 V c 3 t) (ix2 p q)
    = G V c (((cfg1.win 5).blk t).view.emb (ix2 p q))
  refine (Cert.KernelIdeal.Bodies.pay1_apply (iblk1 V c 0 t) (iblk1 V c 1 t) (iblk1 V c 2 t) (iblk1 V c 4 t) (iblk1 V c 3 t) p q).trans ?_
  -- the result block's entry sits in row 5000 t + p of the array
  have e5 : ((cfg1.win 5).blk t).view.emb (ix2 p q) = ix2 (⟨t.val * 5000 + p.val, hr⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [e5]
  unfold G
  rw [Cert.Sage.layer_ix2]
  -- the resident windows' blocks are the arrays themselves
  have w2 : iblk1 V c 2 t = V c (Pipeline.arrRef spec1 2) := by
    funext y
    show V c (Pipeline.arrRef spec1 2) (((cfg1.win 2).blk t).view.emb y) = V c (Pipeline.arrRef spec1 2) y
    have e : ((cfg1.win 2).blk t).view.emb y = y := by
      funext a; apply Fin.ext
      match a with
      | ⟨0, _⟩ => show win1_2.index t (0 : Fin 2) * 128 + 1 * (y 0).val = (y 0).val; omega
      | ⟨1, _⟩ => show win1_2.index t (1 : Fin 2) * 128 + 1 * (y 1).val = (y 1).val; omega
    rw [e]
  have w4 : iblk1 V c 4 t = V c (Pipeline.arrRef spec1 4) := by
    funext y
    show V c (Pipeline.arrRef spec1 4) (((cfg1.win 4).blk t).view.emb y) = V c (Pipeline.arrRef spec1 4) y
    have e : ((cfg1.win 4).blk t).view.emb y = y := by
      funext a; apply Fin.ext
      match a with
      | ⟨0, _⟩ => show win1_4.index t (0 : Fin 2) * 128 + 1 * (y 0).val = (y 0).val; omega
      | ⟨1, _⟩ => show win1_4.index t (1 : Fin 2) * 128 + 1 * (y 1).val = (y 1).val; omega
    rw [e]
  have w3 : iblk1 V c 3 t = V c (Pipeline.arrRef spec1 3) := by
    funext y
    show V c (Pipeline.arrRef spec1 3) (((cfg1.win 3).blk t).view.emb y) = V c (Pipeline.arrRef spec1 3) y
    have e : ((cfg1.win 3).blk t).view.emb y = y := by
      funext a; apply Fin.ext
      match a with
      | ⟨0, _⟩ => show win1_3.index t (0 : Fin 2) * 1 + 1 * (y 0).val = (y 0).val; omega
      | ⟨1, _⟩ => show win1_3.index t (1 : Fin 2) * 128 + 1 * (y 1).val = (y 1).val; omega
    rw [e]
  rw [w2, w4, w3]
  -- the row-blocked windows' blocks hold rows 5000 t … of their arrays
  refine Cert.Sage.layerAt_congr _ _ _ _ _ _ _ p (⟨t.val * 5000 + p.val, hr⟩ : Fin 50000) q (fun k => ?_) (fun k => ?_)
  · show V c (Pipeline.arrRef spec1 0) (((cfg1.win 0).blk t).view.emb (ix2 p k)) = _
    have e : ((cfg1.win 0).blk t).view.emb (ix2 p k) = ix2 (⟨t.val * 5000 + p.val, hr⟩ : Fin 50000) k := by
      funext a; apply Fin.ext
      match a with
      | ⟨0, _⟩ => show win1_0.index t (0 : Fin 2) * 5000 + 1 * p.val = t.val * 5000 + p.val; omega
      | ⟨1, _⟩ => show win1_0.index t (1 : Fin 2) * 128 + 1 * k.val = k.val; omega
    rw [e]
  · show V c (Pipeline.arrRef spec1 1) (((cfg1.win 1).blk t).view.emb (ix2 p k)) = _
    have e : ((cfg1.win 1).blk t).view.emb (ix2 p k) = ix2 (⟨t.val * 5000 + p.val, hr⟩ : Fin 50000) k := by
      funext a; apply Fin.ext
      match a with
      | ⟨0, _⟩ => show win1_1.index t (0 : Fin 2) * 5000 + 1 * p.val = t.val * 5000 + p.val; omega
      | ⟨1, _⟩ => show win1_1.index t (1 : Fin 2) * 128 + 1 * k.val = k.val; omega
    rw [e]

/-- An index of the result is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every index of the result is in the block of the point its row falls in. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e51, _⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the launch is the layer of the arrays the launch finds. -/
theorem final (c : Dev nD) : (dat1 V c).arrAt 5 cfg1.N = G V c :=
  (dat1 V c).arrAt_eq_of_cover 5 (G V c) (fun t _ => flushed_eq V c t) (cover)

end Cert.KernelIdeal.Layer1

end
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LastBody.lean ====
/-
  The last layer's kernel body at one entry of its output block.

  The body computes a block of 5000 rows of the 40 hidden scores `H = max (mean · Wl + feat · Wr + bias) 0` and then,
  row by row, the log-softmax: the row maximum (a fold of `max` from minus infinity, once more against minus infinity),
  kept as a column and spread over the row, is subtracted; the exponentials are summed along the row; the logarithm of
  the sum, again kept as a column and spread, is subtracted. Read at `(p, q)`, every spread column reads its row `p`, so
  the entry is the log-softmax of row `p` of `H` at column `q`.
-/
import proofs.«120409_j69363721831026_1_alg».proof.Proof.Gen.KernelIdeal.Skeleton
import proofs.«120409_j69363721831026_1_alg».proof.Proof.Spec
import proofs.«120409_j69363721831026_1_alg».proof.Proof.LibPlainMatmul
import proofs.«120409_j69363721831026_1_alg».proof.Proof.LibLastAxisFolds
import proofs.«120409_j69363721831026_1_alg».proof.Proof.LibColumnLayout
import Idealize.ShloMosaic.Lib.ValueLayout
import Idealize.ShloMosaic.Lib.Pipeline.Value

noncomputable section

namespace Cert.KernelIdeal.LastBody

open Cert.KernelIdeal Cert.KernelIdeal.Gen Idealize.ShloMosaic Idealize.ShloMosaic.ValueIdx

/-- A product of a block of rows with a 128 × 40 weight matrix whose operands were rounded to bf16, into zero. -/
theorem mm40 (x : FVec Ideal S5000x128 .f32) (w : FVec Ideal S128x40 .f32) (p : Fin 5000) (q : Fin 40) :
    matmul dot_S5000x128_S128x40_S5000x40_1_0_0_1_n_n none (truncf .bf16 x bitsLt_bf16_f32) (truncf .bf16 w bitsLt_bf16_f32)
      (constant S5000x40 .f32 0x00000000#32) (ix2 p q) = ∑ k : Fin 128, x (ix2 p k) * w (ix2 k q) :=
  Cert.Lib.PlainMatmul.matmul_zero_apply dot_S5000x128_S128x40_S5000x40_1_0_0_1_n_n rfl rfl rfl rfl rfl rfl none
    (truncf .bf16 x bitsLt_bf16_f32) (truncf .bf16 w bitsLt_bf16_f32) p q

/-- The bias row repeated down the block reads its column. -/
theorem bias40 (b : FVec Ideal S1x40 .f32) (p : Fin 5000) (q : Fin 40) :
    broadcastTo S5000x40 b broadcasts_S1x40_S5000x40 (ix2 p q) = b (ix2 (0 : Fin 1) q) :=
  broadcastTo_1b_ab_apply b broadcasts_S1x40_S5000x40 p q

/-- The block of hidden scores, as the body computes it. -/
def hid (v0 v3 : FVec Ideal S5000x128 .f32) (v6 v8 : FVec Ideal S128x40 .f32) (v10 : FVec Ideal S1x40 .f32) :
    FVec Ideal S5000x40 .f32 :=
  maximumf
    (addf
      (addf
        (matmul dot_S5000x128_S128x40_S5000x40_1_0_0_1_n_n none
          (truncf .bf16 (shapeCast S5000x128 v0 shapeCasts_S5000x128_S5000x128) bitsLt_bf16_f32) (truncf .bf16 v6 bitsLt_bf16_f32)
          (constant S5000x40 .f32 0x00000000#32))
        (matmul dot_S5000x128_S128x40_S5000x40_1_0_0_1_n_n none
          (truncf .bf16 (shapeCast S5000x128 v3 shapeCasts_S5000x128_S5000x128) bitsLt_bf16_f32) (truncf .bf16 v8 bitsLt_bf16_f32)
          (constant S5000x40 .f32 0x00000000#32)))
      (broadcastTo S5000x40 (shapeCast S1x40 v10 shapeCasts_S1x40_S1x40) broadcasts_S1x40_S5000x40))
    (broadcast S5000x40 (Scalar.ofBits .f32 0x00000000#32))

/-- A hidden score is the layer entry of row `p` of the two loaded blocks. -/
theorem hid_apply (v0 v3 : FVec Ideal S5000x128 .f32) (v6 v8 : FVec Ideal S128x40 .f32) (v10 : FVec Ideal S1x40 .f32)
    (p : Fin 5000) (q : Fin 40) :
    hid v0 v3 v6 v8 v10 (ix2 p q) = Cert.Sage.layerAt v0 v3 v6 v8 (fun c => v10 (ix2 (0 : Fin 1) c)) p q := by
  unfold hid
  simp only [shapeCast_self]
  show max ((_ + _) + _) _ = _
  rw [mm40, mm40, bias40]
  rfl

/-- The row maximum, kept as a column and spread over the row, as the body computes it. -/
def spreadMax (H : FVec Ideal S5000x40 .f32) : FVec Ideal S5000x40 .f32 :=
  broadcastTo S5000x40
    (shapeCast S5000x1
      (maximumf (broadcast S5000 (Scalar.ofBits .f32 0xFF800000#32))
        (multiReduction .maximumf [1] S5000 H 0xFF800000#32 reduces_S5000x40_S5000 (.inl rfl) rfl))
      shapeCasts_S5000_S5000x1)
    broadcasts_S5000x1_S5000x40

/-- The spread row maximum at `(p, k)` is the row maximum of row `p`. -/
theorem spreadMax_apply (H : FVec Ideal S5000x40 .f32) (p : Fin 5000) (k : Fin 40) :
    spreadMax H (ix2 p k) = Cert.Sage.rowMax (fun k' => H (ix2 p k')) := by
  unfold spreadMax
  rw [ColumnLayout.broadcastTo_a1_ab_apply, ColumnLayout.shapeCast_a_a1_apply]
  show max _ (multiReduction .maximumf [1] S5000 H 0xFF800000#32 reduces_S5000x40_S5000 (.inl rfl) rfl (ix1 p)) = _
  rw [Cert.Lib.LastAxisFolds.rowmax_apply]
  rfl

/-- The logarithm of the row sum, kept as a column and spread over the row, as the body computes it. -/
def spreadLogSum (E : FVec Ideal S5000x40 .f32) : FVec Ideal S5000x40 .f32 :=
  broadcastTo S5000x40
    (log
      (shapeCast S5000x1 (multiReduction .add [1] S5000 E 0x00000000#32 reduces_S5000x40_S5000 (.inl rfl) rfl)
        shapeCasts_S5000_S5000x1))
    broadcasts_S5000x1_S5000x40

/-- The spread logarithm at `(p, k)` is the logarithm of the sum of row `p`. -/
theorem spreadLogSum_apply (E : FVec Ideal S5000x40 .f32) (p : Fin 5000) (k : Fin 40) :
    spreadLogSum E (ix2 p k) = Ideal.log (∑ k' : Fin 40, E (ix2 p k')) := by
  unfold spreadLogSum
  rw [ColumnLayout.broadcastTo_a1_ab_apply]
  show Ideal.log (shapeCast S5000x1 (multiReduction .add [1] S5000 E 0x00000000#32 reduces_S5000x40_S5000 (.inl rfl) rfl)
    shapeCasts_S5000_S5000x1 (ix2 p (0 : Fin 1))) = _
  rw [ColumnLayout.shapeCast_a_a1_apply, Cert.Lib.LastAxisFolds.rowsum_apply]

/-- The body is the log-softmax tail over the hidden scores. -/
theorem pay2_eq (v0 v3 : FVec Ideal S5000x128 .f32) (v6 v8 : FVec Ideal S128x40 .f32) (v10 : FVec Ideal S1x40 .f32) :
    k2_pay1 (F := Ideal) v0 v3 v6 v8 v10
      = subf (subf (hid v0 v3 v6 v8 v10) (spreadMax (hid v0 v3 v6 v8 v10)))
          (spreadLogSum (exp (subf (hid v0 v3 v6 v8 v10) (spreadMax (hid v0 v3 v6 v8 v10))))) := rfl

/-- The last layer's body at `(p, q)`. -/
theorem pay2_apply (v0 v3 : FVec Ideal S5000x128 .f32) (v6 v8 : FVec Ideal S128x40 .f32) (v10 : FVec Ideal S1x40 .f32)
    (p : Fin 5000) (q : Fin 40) :
    k2_pay1 (F := Ideal) v0 v3 v6 v8 v10 (ix2 p q)
      = Cert.Sage.lastAt v0 v3 v6 v8 (fun c => v10 (ix2 (0 : Fin 1) c)) p q := by
  rw [pay2_eq]
  show (hid v0 v3 v6 v8 v10 (ix2 p q) - spreadMax (hid v0 v3 v6 v8 v10) (ix2 p q))
      - spreadLogSum (exp (subf (hid v0 v3 v6 v8 v10) (spreadMax (hid v0 v3 v6 v8 v10)))) (ix2 p q) = _
  rw [spreadLogSum_apply, spreadMax_apply]
  have hs : ∀ k' : Fin 40, exp (subf (hid v0 v3 v6 v8 v10) (spreadMax (hid v0 v3 v6 v8 v10))) (ix2 p k')
      = Ideal.exp (hid v0 v3 v6 v8 v10 (ix2 p k') - Cert.Sage.rowMax (fun k'' => hid v0 v3 v6 v8 v10 (ix2 p k''))) := fun k' => by
    show Ideal.exp (hid v0 v3 v6 v8 v10 (ix2 p k') - spreadMax (hid v0 v3 v6 v8 v10) (ix2 p k')) = _
    rw [spreadMax_apply]
  rw [Finset.sum_congr rfl fun k' _ => hs k']
  have hrow : (fun k' => hid v0 v3 v6 v8 v10 (ix2 p k'))
      = fun k' => Cert.Sage.layerAt v0 v3 v6 v8 (fun c => v10 (ix2 (0 : Fin 1) c)) p k' :=
    funext fun k' => hid_apply v0 v3 v6 v8 v10 p k'
  unfold Cert.Sage.lastAt Cert.Sage.lsm
  rw [← hrow]

end Cert.KernelIdeal.LastBody

end
-- ==== Proof.Layer2.lean ====
/-
  The last layer's kernel launch as one function of the arrays it finds.

  The launch runs ten grid points; point `t` loads rows `5000 t … 5000 t + 4999` of the neighbour means and of the
  features and the whole of the two weight matrices and of the bias row, and writes back rows `5000 t …` of the result.
  A log-softmax entry reads only its own row of the means and features, so what point `t` writes back is block `t` of
  the last layer of the whole arrays; the ten blocks cover the result (row `r` lies in block `r / 5000`), which therefore ends
  holding that layer. All of it at any contents `V` of the buffers when the launch begins.
-/
import proofs.«120409_j69363721831026_1_alg».proof.Proof.Gen.KernelIdeal.Frame
import proofs.«120409_j69363721831026_1_alg».proof.Proof.LastBody
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The last layer (log-softmax included) of the arrays the launch finds. -/
def G (c : Dev nD) : S50000x40.Idx → EReal :=
  Cert.Sage.last (V c (Pipeline.arrRef spec2 0)) (V c (Pipeline.arrRef spec2 1)) (V c (Pipeline.arrRef spec2 2))
    (V c (Pipeline.arrRef spec2 4)) (fun q => V c (Pipeline.arrRef spec2 3) (ix2 (0 : Fin 1) q))

/-- The printed index maps over the grid: the row-blocked windows sit at block `(t, 0)`, the resident ones at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 10 :=
  (by decide +kernel : ∀ t : Fin grid2.N, _)

/-- Every block row is some point's. -/
theorem idx_onto : ∀ q0 : Fin 10, ∃ t : Fin cfg2.N, t.val = q0.val :=
  (by decide +kernel : ∀ q0 : Fin 10, ∃ t : Fin grid2.N, t.val = q0.val)

set_option maxHeartbeats 2000000 in
/-- WHAT POINT `t` WRITES BACK is block `t` of the last layer of the arrays the launch finds. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz]
  obtain ⟨e00, e01, e10, e11, e20, e21, e30, e31, e40, e41, e50, e51, ht⟩ := idx_facts t
  funext j
  obtain ⟨p, q, rfl⟩ : ∃ (p : Fin 5000) (q : Fin 40), j = ix2 p q := ⟨j 0, j 1, eq_ix2 j⟩
  have hp : p.val < 5000 := p.isLt
  have hq : q.val < 40 := q.isLt
  have hr : t.val * 5000 + p.val < 50000 := by omega
  show k2_pay1 (iblk2 V c 0 t) (iblk2 V c 1 t) (iblk2 V c 2 t) (iblk2 V c 4 t) (iblk2 V c 3 t) (ix2 p q)
    = G V c (((cfg2.win 5).blk t).view.emb (ix2 p q))
  refine (Cert.KernelIdeal.LastBody.pay2_apply (iblk2 V c 0 t) (iblk2 V c 1 t) (iblk2 V c 2 t) (iblk2 V c 4 t) (iblk2 V c 3 t) p q).trans ?_
  -- the result block's entry sits in row 5000 t + p of the array
  have e5 : ((cfg2.win 5).blk t).view.emb (ix2 p q) = ix2 (⟨t.val * 5000 + p.val, hr⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 40 + 1 * q.val = q.val; omega
  rw [e5]
  unfold G
  rw [Cert.Sage.last_ix2]
  -- the resident windows' blocks are the arrays themselves
  have w2 : iblk2 V c 2 t = V c (Pipeline.arrRef spec2 2) := by
    funext y
    show V c (Pipeline.arrRef spec2 2) (((cfg2.win 2).blk t).view.emb y) = V c (Pipeline.arrRef spec2 2) y
    have e : ((cfg2.win 2).blk t).view.emb y = y := by
      funext a; apply Fin.ext
      match a with
      | ⟨0, _⟩ => show win2_2.index t (0 : Fin 2) * 128 + 1 * (y 0).val = (y 0).val; omega
      | ⟨1, _⟩ => show win2_2.index t (1 : Fin 2) * 40 + 1 * (y 1).val = (y 1).val; omega
    rw [e]
  have w4 : iblk2 V c 4 t = V c (Pipeline.arrRef spec2 4) := by
    funext y
    show V c (Pipeline.arrRef spec2 4) (((cfg2.win 4).blk t).view.emb y) = V c (Pipeline.arrRef spec2 4) y
    have e : ((cfg2.win 4).blk t).view.emb y = y := by
      funext a; apply Fin.ext
      match a with
      | ⟨0, _⟩ => show win2_4.index t (0 : Fin 2) * 128 + 1 * (y 0).val = (y 0).val; omega
      | ⟨1, _⟩ => show win2_4.index t (1 : Fin 2) * 40 + 1 * (y 1).val = (y 1).val; omega
    rw [e]
  have w3 : iblk2 V c 3 t = V c (Pipeline.arrRef spec2 3) := by
    funext y
    show V c (Pipeline.arrRef spec2 3) (((cfg2.win 3).blk t).view.emb y) = V c (Pipeline.arrRef spec2 3) y
    have e : ((cfg2.win 3).blk t).view.emb y = y := by
      funext a; apply Fin.ext
      match a with
      | ⟨0, _⟩ => show win2_3.index t (0 : Fin 2) * 1 + 1 * (y 0).val = (y 0).val; omega
      | ⟨1, _⟩ => show win2_3.index t (1 : Fin 2) * 40 + 1 * (y 1).val = (y 1).val; omega
    rw [e]
  rw [w2, w4, w3]
  -- the row-blocked windows' blocks hold rows 5000 t … of their arrays
  refine Cert.Sage.lastAt_congr _ _ _ _ _ _ _ p (⟨t.val * 5000 + p.val, hr⟩ : Fin 50000) q (fun k => ?_) (fun k => ?_)
  · show V c (Pipeline.arrRef spec2 0) (((cfg2.win 0).blk t).view.emb (ix2 p k)) = _
    have e : ((cfg2.win 0).blk t).view.emb (ix2 p k) = ix2 (⟨t.val * 5000 + p.val, hr⟩ : Fin 50000) k := by
      funext a; apply Fin.ext
      match a with
      | ⟨0, _⟩ => show win2_0.index t (0 : Fin 2) * 5000 + 1 * p.val = t.val * 5000 + p.val; omega
      | ⟨1, _⟩ => show win2_0.index t (1 : Fin 2) * 128 + 1 * k.val = k.val; omega
    rw [e]
  · show V c (Pipeline.arrRef spec2 1) (((cfg2.win 1).blk t).view.emb (ix2 p k)) = _
    have e : ((cfg2.win 1).blk t).view.emb (ix2 p k) = ix2 (⟨t.val * 5000 + p.val, hr⟩ : Fin 50000) k := by
      funext a; apply Fin.ext
      match a with
      | ⟨0, _⟩ => show win2_1.index t (0 : Fin 2) * 5000 + 1 * p.val = t.val * 5000 + p.val; omega
      | ⟨1, _⟩ => show win2_1.index t (1 : Fin 2) * 128 + 1 * k.val = k.val; omega
    rw [e]

/-- An index of the result is in point `t`'s block iff each coordinate is in the block's range on its axis. -/
theorem mem_blk (t : Fin cfg2.N) (i : S50000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v53).slice (win2_5.rect t)).set ↔ _
  rw [View.set_slice_whole, Rect.mem_set_unit]
  exact Iff.rfl

/-- Every index of the result is in the block of the point its row falls in. -/
theorem cover (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  obtain ⟨t, ht⟩ := idx_onto ⟨(i 0).val / 5000, by omega⟩
  have ht' : t.val = (i 0).val / 5000 := ht
  obtain ⟨e00, e01, e10, e11, e20, e21, e30, e31, e40, e41, e50, e51, _⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 40 ≤ (i 1).val ∧ (i 1).val < win2_5.index t (1 : Fin 2) * 40 + 40; omega

/-- THE RESULT ARRAY after the launch is the last layer of the arrays the launch finds. -/
theorem final (c : Dev nD) : (dat2 V c).arrAt 5 cfg2.N = G V c :=
  (dat2 V c).arrAt_eq_of_cover 5 (G V c) (fun t _ => flushed_eq V c t) (cover)

end Cert.KernelIdeal.Layer2

end
-- ==== Proof.KernelValue.lean ====
/-
  The idealized kernel program's result as the network of the argument arrays.

  The result buffer ends at what the third launch's write-backs leave: the last layer of what that launch finds, which
  is the neighbour mean of the second layer's result (computed by the host stretch before it), that result itself (left
  by the second launch), and the third weights and bias (never written). One step back the same holds of the second
  launch, and one more of the first, whose inputs the operations before it computed from the argument arrays. Every
  neighbour mean is the program's "message sum times reciprocal column", which is the specification's quotient by the
  clipped degree.
-/
import proofs.«120409_j69363721831026_1_alg».proof.Proof.Gen.KernelIdeal.Frame
import proofs.«120409_j69363721831026_1_alg».proof.Proof.HostTerms
import proofs.«120409_j69363721831026_1_alg».proof.Proof.HostLawsB
import proofs.«120409_j69363721831026_1_alg».proof.Proof.PrefixMean
import proofs.«120409_j69363721831026_1_alg».proof.Proof.PrefixRow
import proofs.«120409_j69363721831026_1_alg».proof.Proof.PrefixSrc
import proofs.«120409_j69363721831026_1_alg».proof.Proof.PrefixDst
import proofs.«120409_j69363721831026_1_alg».proof.Proof.PrefixInv
import proofs.«120409_j69363721831026_1_alg».proof.Proof.PrefixKept
import proofs.«120409_j69363721831026_1_alg».proof.Proof.Between
import proofs.«120409_j69363721831026_1_alg».proof.Proof.Layer0
import proofs.«120409_j69363721831026_1_alg».proof.Proof.Layer1
import proofs.«120409_j69363721831026_1_alg».proof.Proof.Layer2

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The first hidden layer of the argument arrays. -/
def h1 (c : Dev nD) : S50000x128.Idx → EReal := (Cert.Sage.layer (Cert.Sage.meanOf (Host.agg (m ((c.tc : Thread nD τ).loc main_arg1))) (Host.deg (m ((c.tc : Thread nD τ).loc main_arg1))) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q)))
/-- The second hidden layer. -/
def h2 (c : Dev nD) : S50000x128.Idx → EReal := (Cert.Sage.layer (Cert.Sage.meanOf (Host.agg (m ((c.tc : Thread nD τ).loc main_arg1))) (Host.deg (m ((c.tc : Thread nD τ).loc main_arg1))) (h1 m c)) (h1 m c) (m ((c.tc : Thread nD τ).loc main_arg5)) (m ((c.tc : Thread nD τ).loc main_arg7)) (fun q => (m ((c.tc : Thread nD τ).loc main_arg6)) (ix1 q)))

/-- A buffer that neither the first launch nor the stretch after it writes holds, when the second launch begins, what
    it held when the first began. -/
theorem pass5 (c : Dev nD) (b : Ref sig .tc) (hne : ∀ w, Pipeline.arrRef spec0 w ≠ b)
    (h : ∀ op ∈ (hostOps1 (F := Ideal)), Proc.devRef (τ := τ) .tc b ∉ op.writes) :
    W5 m ρ c (Proc.devRef .tc b) = W3 m ρ c (Proc.devRef .tc b) :=
  (Between.kept1 (W4 m ρ c) b h).trans (W4_of_ne m ρ c b hne)

/-- Likewise from the second launch's beginning to the third's. -/
theorem pass7 (c : Dev nD) (b : Ref sig .tc) (hne : ∀ w, Pipeline.arrRef spec1 w ≠ b)
    (h : ∀ op ∈ (hostOps2 (F := Ideal)), Proc.devRef (τ := τ) .tc b ∉ op.writes) :
    W7 m ρ c (Proc.devRef .tc b) = W5 m ρ c (Proc.devRef .tc b) :=
  (Between.kept2 (W6 m ρ c) b h).trans (W6_of_ne m ρ c b hne)

/-- The first launch leaves the first hidden layer. -/
theorem first (c : Dev nD) : W4 m ρ c (Proc.devRef .tc main_v25) = h1 m c := by
  refine (W4_arr m ρ c 5).trans ?_
  rw [Layer0.final]
  unfold Layer0.G h1
  show Cert.Sage.layer (W3 m ρ c (Proc.devRef .tc main_v23)) (W3 m ρ c (Proc.devRef .tc main_arg0)) (W3 m ρ c (Proc.devRef .tc main_arg2))
    (W3 m ρ c (Proc.devRef .tc main_arg4)) (fun q => W3 m ρ c (Proc.devRef .tc main_v24) (ix2 (0 : Fin 1) q)) = _
  rw [Prefix.at_v23, Prefix.at_arg0, Prefix.at_arg2, Prefix.at_arg4, Prefix.at_v24, Host.bias_row128, Host.meanv_eq]

/-- The second launch leaves the second hidden layer. -/
theorem second (c : Dev nD) : W6 m ρ c (Proc.devRef .tc main_v39) = h2 m c := by
  refine (W6_arr m ρ c 5).trans ?_
  rw [Layer1.final]
  unfold Layer1.G h2
  show Cert.Sage.layer (StableHlo.after (hostOps1 (F := Ideal)) (W4 m ρ c) (Proc.devRef .tc main_v37))
    (StableHlo.after (hostOps1 (F := Ideal)) (W4 m ρ c) (Proc.devRef .tc main_v25))
    (StableHlo.after (hostOps1 (F := Ideal)) (W4 m ρ c) (Proc.devRef .tc main_arg5))
    (StableHlo.after (hostOps1 (F := Ideal)) (W4 m ρ c) (Proc.devRef .tc main_arg7))
    (fun q => StableHlo.after (hostOps1 (F := Ideal)) (W4 m ρ c) (Proc.devRef .tc main_v38) (ix2 (0 : Fin 1) q)) = _
  rw [Between.mean1, Between.kept1_v25, Between.kept1_arg5, Between.kept1_arg7, Between.bias1, first,
    W4_of_ne m ρ c main_v1 (by decide), W4_of_ne m ρ c main_v3 (by decide), W4_of_ne m ρ c main_v11 (by decide),
    W4_of_ne m ρ c main_arg5 (by decide), W4_of_ne m ρ c main_arg6 (by decide), W4_of_ne m ρ c main_arg7 (by decide),
    Prefix.at_v1, Prefix.at_v3, Prefix.at_v11, Prefix.at_arg5, Prefix.at_arg6, Prefix.at_arg7, Host.bias_row128, Host.meanv_eq]

/-- THE RESULT: the network of the argument arrays. -/
theorem value (c : Dev nD) : W8 m ρ c (Proc.devRef .tc main_v53)
    = Cert.Sage.net (Host.agg (m ((c.tc : Thread nD τ).loc main_arg1))) (Host.deg (m ((c.tc : Thread nD τ).loc main_arg1))) (m ((c.tc : Thread nD τ).loc main_arg0))
        (m ((c.tc : Thread nD τ).loc main_arg2)) (m ((c.tc : Thread nD τ).loc main_arg4)) (fun q => (m ((c.tc : Thread nD τ).loc main_arg3)) (ix1 q))
        (m ((c.tc : Thread nD τ).loc main_arg5)) (m ((c.tc : Thread nD τ).loc main_arg7)) (fun q => (m ((c.tc : Thread nD τ).loc main_arg6)) (ix1 q))
        (m ((c.tc : Thread nD τ).loc main_arg8)) (m ((c.tc : Thread nD τ).loc main_arg10)) (fun q => (m ((c.tc : Thread nD τ).loc main_arg9)) (ix1 q)) := by
  refine (W8_arr m ρ c 5).trans ?_
  rw [Layer2.final]
  unfold Layer2.G
  show Cert.Sage.last (StableHlo.after (hostOps2 (F := Ideal)) (W6 m ρ c) (Proc.devRef .tc main_v51))
    (StableHlo.after (hostOps2 (F := Ideal)) (W6 m ρ c) (Proc.devRef .tc main_v39))
    (StableHlo.after (hostOps2 (F := Ideal)) (W6 m ρ c) (Proc.devRef .tc main_arg8))
    (StableHlo.after (hostOps2 (F := Ideal)) (W6 m ρ c) (Proc.devRef .tc main_arg10))
    (fun q => StableHlo.after (hostOps2 (F := Ideal)) (W6 m ρ c) (Proc.devRef .tc main_v52) (ix2 (0 : Fin 1) q)) = _
  rw [Between.mean2, Between.kept2_v39, Between.kept2_arg8, Between.kept2_arg10, Between.bias2, second,
    W6_of_ne m ρ c main_v1 (by decide), W6_of_ne m ρ c main_v3 (by decide), W6_of_ne m ρ c main_v11 (by decide),
    W6_of_ne m ρ c main_arg8 (by decide), W6_of_ne m ρ c main_arg9 (by decide), W6_of_ne m ρ c main_arg10 (by decide),
    pass5 m ρ c main_v1 (by decide) (by not_written), pass5 m ρ c main_v3 (by decide) (by not_written), pass5 m ρ c main_v11 (by decide) (by not_written),
    pass5 m ρ c main_arg8 (by decide) (by not_written), pass5 m ρ c main_arg9 (by decide) (by not_written), pass5 m ρ c main_arg10 (by decide) (by not_written),
    Prefix.at_v1, Prefix.at_v3, Prefix.at_v11, Prefix.at_arg8, Prefix.at_arg9, Prefix.at_arg10, Host.bias_row40, Host.meanv_eq]
  rfl

end Cert.KernelIdeal.Whole

end
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.RefLayers.lean ====
/-
  The reference program's three layers as terms of host operations, and what each computes.

  A layer of the reference gathers, for every edge, the source node's feature row, adds it into the destination node's
  row (the message sum), counts every node's incoming edges and clips the count below at one (the degree), divides
  the message sum row by row by the degree, multiplies by the left weight, adds the bias, adds the node's own row times
  the right weight, and takes the maximum with zero. Read at an entry `(r, c)` this is the shared mathematics
  `Cert.Sage.layer` at the neighbour mean `Cert.Sage.meanOf`: a matrix product on the host is the sum over the
  contracted index, the two broadcasts of the degree read the degree of row `r`, the two broadcasts of the bias read the
  bias of column `c`, and the bias may be added before the own-row product since addition of extended reals is
  commutative and associative. The last layer has 40 columns and is followed by a row-wise log-softmax: the row
  maximum is the fold of `max` from minus infinity (taken once more against minus infinity), the normaliser the sum of
  the exponentials of the shifted row from zero, and the result the shifted entry minus the logarithm of that sum.
-/
import proofs.«120409_j69363721831026_1_alg».proof.Proof.Gen.ReferenceIdeal
import proofs.«120409_j69363721831026_1_alg».proof.Proof.Spec
import proofs.«120409_j69363721831026_1_alg».proof.Proof.LibPlainDotGeneral
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-! ## The edge list and the aggregation -/

/-- The source node of every edge: row 0 of the edge array. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The destination node of every edge: row 1 of the edge array. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The source nodes with a negative index counted from the end, as a column of start indices. -/
def wrapped (e : (⟨S2x800000, .i32⟩ : BufTy).Contents (Elt Ideal)) : (⟨S800000x1, .i32⟩ : BufTy).Contents (Elt Ideal) :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))

/-- The message sum: every edge's source row added into its destination's row, from zero. -/
def agg (e : (⟨S2x800000, .i32⟩ : BufTy).Contents (Elt Ideal)) (h : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dst e))
    (Host.gather gather_S50000x128_S800000x1_S800000x128_1_0_n_n_0_1_1128 h (wrapped e))

/-- The clipped degree as a vector: one added per incoming edge from zero, then the maximum with one. -/
def degv (e : (⟨S2x800000, .i32⟩ : BufTy).Contents (Elt Ideal)) : S50000.Idx → EReal :=
  maximumf (broadcastInDim S50000 ![] bcast_S_S50000 (constant (F := Ideal) S_ .f32 0x3F800000#32))
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 (dst e))
      (broadcastInDim S800000 ![] bcast_S_S800000 (constant (F := Ideal) S_ .f32 0x3F800000#32)))

/-- The clipped degree of node `r`. -/
def deg (e : (⟨S2x800000, .i32⟩ : BufTy).Contents (Elt Ideal)) : Fin 50000 → EReal := fun r => degv e (ix1 r)

/-! ## The layers as terms of host operations -/

/-- A hidden layer (128 columns) from the layer's input `h`, left weight `Wl`, bias `b` and right weight `Wr`. -/
def refLayer (e : (⟨S2x800000, .i32⟩ : BufTy).Contents (Elt Ideal)) (h : S50000x128.Idx → EReal) (Wl : S128x128.Idx → EReal)
    (b : S128.Idx → EReal) (Wr : S128x128.Idx → EReal) : S50000x128.Idx → EReal :=
  maximumf (F := Ideal) (φ := .f32)
    (addf
      (addf
        (Host.dotGeneral (F := Ideal) (φ₁ := .f32) (φ₂ := .f32) dot_S50000x128_S128x128_S50000x128_1_0_0_1_n_n none
          (Host.divf (F := Ideal) (φ := .f32) (agg e h)
            (broadcastInDim S50000x128 ![0, 1] bcast_S50000x1_S50000x128_0_1
              (broadcastInDim S50000x1 ![0] bcast_S50000_S50000x1_0 (degv e))))
          Wl)
        (broadcastInDim S50000x128 ![0, 1] bcast_S1x128_S50000x128_0_1 (broadcastInDim S1x128 ![1] bcast_S128_S1x128_1 b)))
      (Host.dotGeneral (F := Ideal) (φ₁ := .f32) (φ₂ := .f32) dot_S50000x128_S128x128_S50000x128_1_0_0_1_n_n none h Wr))
    (broadcastInDim S50000x128 ![] bcast_S_S50000x128 (constant (F := Ideal) S_ .f32 0x00000000#32))

/-- The last layer (40 columns) before its log-softmax. -/
def refLayer40 (e : (⟨S2x800000, .i32⟩ : BufTy).Contents (Elt Ideal)) (h : S50000x128.Idx → EReal) (Wl : S128x40.Idx → EReal)
    (b : S40.Idx → EReal) (Wr : S128x40.Idx → EReal) : S50000x40.Idx → EReal :=
  maximumf (F := Ideal) (φ := .f32)
    (addf
      (addf
        (Host.dotGeneral (F := Ideal) (φ₁ := .f32) (φ₂ := .f32) dot_S50000x128_S128x40_S50000x40_1_0_0_1_n_n none
          (Host.divf (F := Ideal) (φ := .f32) (agg e h)
            (broadcastInDim S50000x128 ![0, 1] bcast_S50000x1_S50000x128_0_1
              (broadcastInDim S50000x1 ![0] bcast_S50000_S50000x1_0 (degv e))))
          Wl)
        (broadcastInDim S50000x40 ![0, 1] bcast_S1x40_S50000x40_0_1 (broadcastInDim S1x40 ![1] bcast_S40_S1x40_1 b)))
      (Host.dotGeneral (F := Ideal) (φ₁ := .f32) (φ₂ := .f32) dot_S50000x128_S128x40_S50000x40_1_0_0_1_n_n none h Wr))
    (broadcastInDim S50000x40 ![] bcast_S_S50000x40 (constant (F := Ideal) S_ .f32 0x00000000#32))

/-- The row maximum of a 40-column array as the log-softmax takes it: the maximum along the row from minus infinity,
    then once more against minus infinity. -/
def rowMaxV (y : S50000x40.Idx → EReal) : S50000.Idx → EReal :=
  maximumf (F := Ideal) (φ := .f32) (broadcastInDim S50000 ![] bcast_S_S50000 (constant (F := Ideal) S_ .f32 0xFF800000#32))
    (Host.reduce FloatOps.maximumf y (constant (F := Ideal) S_ .f32 0xFF800000#32) reducesTo_S50000x40_S50000_d1 h_S_)

/-- The array with its row maximum subtracted from every entry. -/
def shifted (y : S50000x40.Idx → EReal) : S50000x40.Idx → EReal :=
  subf (F := Ideal) (φ := .f32) y
    (broadcastInDim S50000x40 ![0, 1] bcast_S50000x1_S50000x40_0_1
      (broadcastInDim S50000x1 ![0] bcast_S50000_S50000x1_0 (rowMaxV y)))

/-- The log-softmax of a 40-column array, operation by operation. -/
def lsmOps (y : S50000x40.Idx → EReal) : S50000x40.Idx → EReal :=
  subf (F := Ideal) (φ := .f32) (shifted y)
    (broadcastInDim S50000x40 ![0, 1] bcast_S50000x1_S50000x40_0_1
      (Host.log (F := Ideal) (φ := .f32)
        (broadcastInDim S50000x1 ![0] bcast_S50000_S50000x1_0
          (Host.reduceAdd (F := Ideal) (φ := .f32) (Host.exp (F := Ideal) (φ := .f32) (shifted y))
            (constant (F := Ideal) S_ .f32 0x00000000#32) reducesTo_S50000x40_S50000_d1 h_S_))))

/-- The last layer with its log-softmax. -/
def refLast (e : (⟨S2x800000, .i32⟩ : BufTy).Contents (Elt Ideal)) (h : S50000x128.Idx → EReal) (Wl : S128x40.Idx → EReal)
    (b : S40.Idx → EReal) (Wr : S128x40.Idx → EReal) : S50000x40.Idx → EReal :=
  lsmOps (refLayer40 e h Wl b Wr)

/-! ## Broadcasts read at an entry -/

section Reads
variable {α : Type}

/-- A vector over the nodes made a column reads, in row `r`, the vector at `r`. -/
theorem col_apply (v : S50000.Idx → α) (r : Fin 50000) :
    broadcastInDim S50000x1 ![0] bcast_S50000_S50000x1_0 v (ix2 r (0 : Fin 1)) = v (ix1 r) :=
  broadcastInDim_apply _ bcast_S50000_S50000x1_0 v (ix2 r (0 : Fin 1)) (ix1 r) (fun a => match a with
    | ⟨0, _⟩ => by show r.val = if (50000 : Nat) = 1 then 0 else r.val; rw [if_neg (by decide)])

/-- A column spread over 128 columns reads, at `(r, k)`, the column in row `r`. -/
theorem spread128_apply (x : S50000x1.Idx → α) (r : Fin 50000) (k : Fin 128) :
    broadcastInDim S50000x128 ![0, 1] bcast_S50000x1_S50000x128_0_1 x (ix2 r k) = x (ix2 r (0 : Fin 1)) :=
  broadcastInDim_apply _ bcast_S50000x1_S50000x128_0_1 x (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- A column spread over 40 columns reads, at `(r, c)`, the column in row `r`. -/
theorem spread40_apply (x : S50000x1.Idx → α) (r : Fin 50000) (c : Fin 40) :
    broadcastInDim S50000x40 ![0, 1] bcast_S50000x1_S50000x40_0_1 x (ix2 r c) = x (ix2 r (0 : Fin 1)) :=
  broadcastInDim_apply _ bcast_S50000x1_S50000x40_0_1 x (ix2 r c) (ix2 r (0 : Fin 1)) (fun a => match a with
    | ⟨0, _⟩ => by show r.val = if (50000 : Nat) = 1 then 0 else r.val; rw [if_neg (by decide)]
    | ⟨1, _⟩ => by show 0 = if (1 : Nat) = 1 then 0 else c.val; rw [if_pos rfl])

/-- A bias of length 128 made a row and spread over the nodes reads, at `(r, c)`, the bias at `c`. -/
theorem bias128_apply (b : S128.Idx → α) (r : Fin 50000) (c : Fin 128) :
    broadcastInDim S50000x128 ![0, 1] bcast_S1x128_S50000x128_0_1 (broadcastInDim S1x128 ![1] bcast_S128_S1x128_1 b) (ix2 r c)
      = b (ix1 c) :=
  (broadcastInDim_apply _ bcast_S1x128_S50000x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans
  (broadcastInDim_apply _ bcast_S128_S1x128_1 b (ix2 (0 : Fin 1) c) (ix1 c) (fun a => match a with
    | ⟨0, _⟩ => by show c.val = if (128 : Nat) = 1 then 0 else c.val; rw [if_neg (by decide)]))

/-- A bias of length 40 made a row and spread over the nodes reads, at `(r, c)`, the bias at `c`. -/
theorem bias40_apply (b : S40.Idx → α) (r : Fin 50000) (c : Fin 40) :
    broadcastInDim S50000x40 ![0, 1] bcast_S1x40_S50000x40_0_1 (broadcastInDim S1x40 ![1] bcast_S40_S1x40_1 b) (ix2 r c)
      = b (ix1 c) :=
  (broadcastInDim_apply _ bcast_S1x40_S50000x40_0_1 _ (ix2 r c) (ix2 (0 : Fin 1) c) (fun a => match a with
    | ⟨0, _⟩ => by show 0 = if (1 : Nat) = 1 then 0 else r.val; rw [if_pos rfl]
    | ⟨1, _⟩ => by show c.val = if (40 : Nat) = 1 then 0 else c.val; rw [if_neg (by decide)])).trans
  (broadcastInDim_apply _ bcast_S40_S1x40_1 b (ix2 (0 : Fin 1) c) (ix1 c) (fun a => match a with
    | ⟨0, _⟩ => by show c.val = if (40 : Nat) = 1 then 0 else c.val; rw [if_neg (by decide)]))

end Reads

/-- The host's logarithm of an array at an index. -/
theorem hostLog_apply {s : Shape} (x : s.Idx → EReal) (i : s.Idx) :
    Host.log (F := Ideal) (φ := .f32) x i = Ideal.log (x i) := rfl
/-- The host's exponential of an array at an index. -/
theorem hostExp_apply {s : Shape} (x : s.Idx → EReal) (i : s.Idx) :
    Host.exp (F := Ideal) (φ := .f32) x i = Ideal.exp (x i) := rfl
/-- A constant array reads its one value, as an extended real, everywhere. -/
theorem constant_apply {s : Shape} (w : BitVec FTy.f32.bits) (i : s.Idx) :
    constant (F := Ideal) s .f32 w i = Ideal.ofBits .f32 w := rfl

/-! ## The neighbour mean and the matrix products -/

/-- The message sum divided by the degree spread over the columns is the neighbour mean of the shared mathematics. -/
theorem mean_eq (e : (⟨S2x800000, .i32⟩ : BufTy).Contents (Elt Ideal)) (h : S50000x128.Idx → EReal) :
    Host.divf (F := Ideal) (φ := .f32) (agg e h)
        (broadcastInDim S50000x128 ![0, 1] bcast_S50000x1_S50000x128_0_1
          (broadcastInDim S50000x1 ![0] bcast_S50000_S50000x1_0 (degv e)))
      = Cert.Sage.meanOf (agg e) (deg e) h := by
  funext i
  obtain ⟨r, k, rfl⟩ : ∃ (r : Fin 50000) (k : Fin 128), i = ix2 r k := ⟨i 0, i 1, eq_ix2 i⟩
  refine (hostDivf_apply _ _ _).trans ?_
  rw [spread128_apply, col_apply]
  rfl

/-- A host product by a 128-column weight at `(r, c)`: the sum over the contracted index. -/
theorem dot128_apply (x : S50000x128.Idx → EReal) (W : S128x128.Idx → EReal) (r : Fin 50000) (c : Fin 128) :
    Host.dotGeneral (F := Ideal) (φ₁ := .f32) (φ₂ := .f32) dot_S50000x128_S128x128_S50000x128_1_0_0_1_n_n none x W (ix2 r c)
      = ∑ k : Fin 128, x (ix2 r k) * W (ix2 k c) :=
  Cert.Lib.PlainDotGeneral.dotGeneral_apply dot_S50000x128_S128x128_S50000x128_1_0_0_1_n_n rfl rfl rfl rfl rfl rfl none .single x W r c

/-- A host product by a 40-column weight at `(r, c)`: the sum over the contracted index. -/
theorem dot40_apply (x : S50000x128.Idx → EReal) (W : S128x40.Idx → EReal) (r : Fin 50000) (c : Fin 40) :
    Host.dotGeneral (F := Ideal) (φ₁ := .f32) (φ₂ := .f32) dot_S50000x128_S128x40_S50000x40_1_0_0_1_n_n none x W (ix2 r c)
      = ∑ k : Fin 128, x (ix2 r k) * W (ix2 k c) :=
  Cert.Lib.PlainDotGeneral.dotGeneral_apply dot_S50000x128_S128x40_S50000x40_1_0_0_1_n_n rfl rfl rfl rfl rfl rfl none .single x W r c

/-- The maximum with zero of the three summands, the bias added second, is a layer entry. -/
theorem layer_entry {C : ℕ} (mean feat : (⟨2, ![50000, 128]⟩ : Shape).Idx → EReal) (Wl Wr : (⟨2, ![128, C]⟩ : Shape).Idx → EReal)
    (b : Fin C → EReal) (r : Fin 50000) (c : Fin C) :
    max ((∑ k : Fin 128, mean (ix2 r k) * Wl (ix2 k c) + b c) + ∑ k : Fin 128, feat (ix2 r k) * Wr (ix2 k c)) Cert.Sage.z
      = Cert.Sage.layer mean feat Wl Wr b (ix2 r c) :=
  congrArg (fun x => max x Cert.Sage.z)
    (Cert.Sage.lin_bias_first (fun k => mean (ix2 r k)) (fun k => feat (ix2 r k)) Wl Wr b c)

/-- A hidden layer of the reference is the layer of the shared mathematics over the neighbour mean. -/
theorem refLayer_eq (e : (⟨S2x800000, .i32⟩ : BufTy).Contents (Elt Ideal)) (h : S50000x128.Idx → EReal) (Wl : S128x128.Idx → EReal)
    (b : S128.Idx → EReal) (Wr : S128x128.Idx → EReal) :
    refLayer e h Wl b Wr = Cert.Sage.layer (Cert.Sage.meanOf (agg e) (deg e) h) h Wl Wr (fun q => b (ix1 q)) := by
  unfold refLayer
  rw [mean_eq]
  funext i
  obtain ⟨r, c, rfl⟩ : ∃ (r : Fin 50000) (c : Fin 128), i = ix2 r c := ⟨i 0, i 1, eq_ix2 i⟩
  rw [maximumf_apply, addf_apply, addf_apply, dot128_apply, dot128_apply, bias128_apply, broadcastInDim_scalar_apply]
  exact layer_entry (Cert.Sage.meanOf (agg e) (deg e) h) h Wl Wr (fun q => b (ix1 q)) r c

/-- The last layer before its log-softmax is the 40-column layer of the shared mathematics. -/
theorem refLayer40_eq (e : (⟨S2x800000, .i32⟩ : BufTy).Contents (Elt Ideal)) (h : S50000x128.Idx → EReal) (Wl : S128x40.Idx → EReal)
    (b : S40.Idx → EReal) (Wr : S128x40.Idx → EReal) :
    refLayer40 e h Wl b Wr = Cert.Sage.layer (Cert.Sage.meanOf (agg e) (deg e) h) h Wl Wr (fun q => b (ix1 q)) := by
  unfold refLayer40
  rw [mean_eq]
  funext i
  obtain ⟨r, c, rfl⟩ : ∃ (r : Fin 50000) (c : Fin 40), i = ix2 r c := ⟨i 0, i 1, eq_ix2 i⟩
  rw [maximumf_apply, addf_apply, addf_apply, dot40_apply, dot40_apply, bias40_apply, broadcastInDim_scalar_apply]
  exact layer_entry (Cert.Sage.meanOf (agg e) (deg e) h) h Wl Wr (fun q => b (ix1 q)) r c

/-! ## The log-softmax -/

/-- Row `r` of a 40-column array with column `k` put back is `(r, k)`. -/
theorem lift40 (h : S50000x40.Reduces [1] S50000) (r : Fin 50000) (k : Fin (S50000x40.size 1)) :
    h.lift (ix1 r) k = ix2 r (⟨k.val, k.isLt⟩ : Fin 40) :=
  funext fun d => Fin.ext (by match d with | ⟨0, _⟩ => rfl | ⟨1, _⟩ => rfl)

/-- The row maximum at `r`: the fold of `max` over the row from minus infinity, once more against minus infinity. -/
theorem rowMaxV_apply (y : S50000x40.Idx → EReal) (r : Fin 50000) :
    rowMaxV y (ix1 r) = Cert.Sage.rowMax (fun q => y (ix2 r q)) := by
  have hR : S50000x40.Reduces [1] S50000 := by decide
  unfold rowMaxV Cert.Sage.rowMax
  rw [maximumf_apply, broadcastInDim_scalar_apply,
    Host.reduce_eq_fold_single (FloatOps.maximumf (F := Ideal) (φ := .f32)) y _ reducesTo_S50000x40_S50000_d1 hR h_S_]
  have hf : (y ∘ hR.lift (ix1 r)) = fun q : Fin 40 => y (ix2 r q) := funext fun k => congrArg y (lift40 hR r k)
  exact congrArg (fun f => max Cert.Sage.ninf (Finset.fold max Cert.Sage.ninf f (Finset.univ : Finset (Fin 40)))) hf

/-- The shifted array at `(r, c)`. -/
theorem shifted_apply (y : S50000x40.Idx → EReal) (r : Fin 50000) (c : Fin 40) :
    shifted y (ix2 r c) = y (ix2 r c) - Cert.Sage.rowMax (fun q => y (ix2 r q)) := by
  unfold shifted
  rw [subf_apply, spread40_apply, col_apply, rowMaxV_apply]

/-- The normaliser of row `r`: the sum of the exponentials of the shifted row, from zero. -/
theorem sumExp_apply (y : S50000x40.Idx → EReal) (r : Fin 50000) :
    Host.reduceAdd (F := Ideal) (φ := .f32) (Host.exp (F := Ideal) (φ := .f32) (shifted y))
        (constant (F := Ideal) S_ .f32 0x00000000#32) reducesTo_S50000x40_S50000_d1 h_S_ (ix1 r)
      = ∑ k : Fin 40, Ideal.exp (y (ix2 r k) - Cert.Sage.rowMax (fun q => y (ix2 r q))) := by
  have hR : S50000x40.Reduces [1] S50000 := by decide
  rw [hostReduceAdd_apply, Ideal.hostReduceAdd_single reducesTo_S50000x40_S50000_d1 hR, constant_apply,
    Ideal.ofBits_zero_f32, zero_add]
  refine Finset.sum_congr rfl fun k _ => ?_
  rw [lift40 hR r k, hostExp_apply, shifted_apply]
  rfl

/-- The log-softmax operations at `(r, c)`: the log-softmax of row `r` at column `c`. -/
theorem lsmOps_apply (y : S50000x40.Idx → EReal) (r : Fin 50000) (c : Fin 40) :
    lsmOps y (ix2 r c) = Cert.Sage.lsm (fun q => y (ix2 r q)) c := by
  unfold lsmOps Cert.Sage.lsm
  rw [subf_apply, spread40_apply, shifted_apply, hostLog_apply, col_apply, sumExp_apply]

/-- The last layer of the reference with its log-softmax is the last layer of the shared mathematics. -/
theorem refLast_eq (e : (⟨S2x800000, .i32⟩ : BufTy).Contents (Elt Ideal)) (h : S50000x128.Idx → EReal) (Wl : S128x40.Idx → EReal)
    (b : S40.Idx → EReal) (Wr : S128x40.Idx → EReal) :
    refLast e h Wl b Wr = Cert.Sage.last (Cert.Sage.meanOf (agg e) (deg e) h) h Wl Wr (fun q => b (ix1 q)) := by
  unfold refLast
  rw [refLayer40_eq]
  funext i
  obtain ⟨r, c, rfl⟩ : ∃ (r : Fin 50000) (c : Fin 40), i = ix2 r c := ⟨i 0, i 1, eq_ix2 i⟩
  rw [lsmOps_apply]
  rfl

end Cert.ReferenceIdeal.Hand

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.RefRun.lean ====
/-
  The reference program's run, read one layer at a time.

  The program is a line of 124 host operations. It is cut into five consecutive stretches: the slicing of the edge array
  into sources and destinations, the first layer, the second layer, the third layer up to its maximum with zero, and
  the log-softmax. The contents after the whole line are those after the last stretch from the contents after the ones
  before it. Each stretch, from ARBITRARY incoming contents, leaves in its result buffer the layer term of the incoming
  contents of the buffers it reads; the buffers a stretch does not write keep their contents. Chaining the five and
  rewriting each layer term by what it computes gives the network of the shared mathematics at the program's
  arguments, which the run leaves unchanged.
-/
import proofs.«120409_j69363721831026_1_alg».proof.Proof.RefOps
import proofs.«120409_j69363721831026_1_alg».proof.Proof.RefLayers
import proofs.«120409_j69363721831026_1_alg».proof.Proof.LibAfterAppend
import proofs.«120409_j69363721831026_1_alg».proof.Proof.LibTypedRefCasts
import Idealize.ShloMosaic.Lib.StableHlo.Run

noncomputable section

namespace Cert.ReferenceIdeal.Hand

open Cert.ReferenceIdeal Cert.ReferenceIdeal.Gen Cert.ReferenceIdeal.OpsP Idealize.ShloMosaic Idealize.ShloMosaic.TcCoe Idealize.SL.Sem
  Idealize.ShloMosaic.StableHlo Idealize.ShloMosaic.ValueIdx

/-! ## The five stretches -/

variable {F : FTy → Type} [FloatOps F]

/-- The edge array sliced into its two rows and each row made a vector: operations 1 to 4. -/
abbrev l0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- The first layer: operations 5 to 39. -/
abbrev l1 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v17) (TRef.of (T := ⟨S50000, .f32⟩) main_v18) maximumf,
    unary main_v18 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    binary main_v21 main_arg2 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg4 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v27) (TRef.of (T := ⟨S50000x128, .f32⟩) main_call1_v0) (TRef.of (T := ⟨S50000x128, .f32⟩) main_v28) maximumf ]

/-- The second layer: operations 40 to 74. -/
abbrev l2 : List (HloOp τ sig (Elt F)) :=
  [ nullary main_c_4 (constantI S_ 32 0#32),
    unary main_c_4 main_v29 (broadcastInDim S800000 ![] bcast_S_S800000 : (⟨S_, .i32⟩ : BufTy).Contents (Elt F) → (⟨S800000, .i32⟩ : BufTy).Contents (Elt F)),
    binary main_v1 main_v29 main_v30 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v31 (broadcastInDim S800000 ![] bcast_S_S800000 : (⟨S_, .i32⟩ : BufTy).Contents (Elt F) → (⟨S800000, .i32⟩ : BufTy).Contents (Elt F)),
    binary main_v1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v28 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v36 (broadcastInDim S50000x128 ![] bcast_S_S50000x128 : (⟨S_, .f32⟩ : BufTy).Contents (Elt F) → (⟨S50000x128, .f32⟩ : BufTy).Contents (Elt F)),
    unary main_v3 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v39 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v40 (broadcastInDim S50000 ![] bcast_S_S50000 : (⟨S_, .f32⟩ : BufTy).Contents (Elt F) → (⟨S50000, .f32⟩ : BufTy).Contents (Elt F)),
    unary main_v3 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v42) (TRef.of (T := ⟨S50000, .f32⟩) main_v43) maximumf,
    unary main_v43 main_v44 (broadcastInDim S50000x1 ![0] bcast_S50000_S50000x1_0 : (⟨S50000, .f32⟩ : BufTy).Contents (Elt F) → (⟨S50000x1, .f32⟩ : BufTy).Contents (Elt F)),
    unary main_v44 main_v45 (broadcastInDim S50000x128 ![0, 1] bcast_S50000x1_S50000x128_0_1 : (⟨S50000x1, .f32⟩ : BufTy).Contents (Elt F) → (⟨S50000x128, .f32⟩ : BufTy).Contents (Elt F)),
    binary main_v38 main_v45 main_v46 (Host.divf : (⟨S50000x128, .f32⟩ : BufTy).Contents (Elt F) → (⟨S50000x128, .f32⟩ : BufTy).Contents (Elt F) → (⟨S50000x128, .f32⟩ : BufTy).Contents (Elt F)),
    binary main_v46 main_arg5 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    binary main_v28 main_arg7 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v50 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v52) (TRef.of (T := ⟨S50000x128, .f32⟩) main_call3_v0) (TRef.of (T := ⟨S50000x128, .f32⟩) main_v53) maximumf ]

/-- The third layer up to its maximum with zero: operations 75 to 109. -/
abbrev l3 : List (HloOp τ sig (Elt F)) :=
  [ nullary main_c_10 (constantI S_ 32 0#32),
    unary main_c_10 main_v54 (broadcastInDim S800000 ![] bcast_S_S800000 : (⟨S_, .i32⟩ : BufTy).Contents (Elt F) → (⟨S800000, .i32⟩ : BufTy).Contents (Elt F)),
    binary main_v1 main_v54 main_v55 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v56 (broadcastInDim S800000 ![] bcast_S_S800000 : (⟨S_, .i32⟩ : BufTy).Contents (Elt F) → (⟨S800000, .i32⟩ : BufTy).Contents (Elt F)),
    binary main_v1 main_v56 main_v57 (addi : (⟨S800000, .i32⟩ : BufTy).Contents (Elt F) → (⟨S800000, .i32⟩ : BufTy).Contents (Elt F) → (⟨S800000, .i32⟩ : BufTy).Contents (Elt F)),
    ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v58 main_v59 (broadcastInDim S800000x1 ![0] bcast_S800000_S800000x1_0 : (⟨S800000, .i32⟩ : BufTy).Contents (Elt F) → (⟨S800000x1, .i32⟩ : BufTy).Contents (Elt F)),
    binary main_v53 main_v59 main_v60 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v61 (broadcastInDim S50000x128 ![] bcast_S_S50000x128 : (⟨S_, .f32⟩ : BufTy).Contents (Elt F) → (⟨S50000x128, .f32⟩ : BufTy).Contents (Elt F)),
    unary main_v3 main_v62 (broadcastInDim S800000x1 ![0] bcast_S800000_S800000x1_0 : (⟨S800000, .i32⟩ : BufTy).Contents (Elt F) → (⟨S800000x1, .i32⟩ : BufTy).Contents (Elt F)),
    ternary main_v61 main_v62 main_v60 main_v63 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v64 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v65 (broadcastInDim S50000 ![] bcast_S_S50000 : (⟨S_, .f32⟩ : BufTy).Contents (Elt F) → (⟨S50000, .f32⟩ : BufTy).Contents (Elt F)),
    unary main_v3 main_v66 (broadcastInDim S800000x1 ![0] bcast_S800000_S800000x1_0 : (⟨S800000, .i32⟩ : BufTy).Contents (Elt F) → (⟨S800000x1, .i32⟩ : BufTy).Contents (Elt F)),
    ternary main_v65 main_v66 main_v64 main_v67 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    TRef.unary (TRef.of (T := ⟨S_, .f32⟩) main_cst_15) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v67) (TRef.of (T := ⟨S50000, .f32⟩) main_v68) maximumf,
    unary main_v68 main_v69 (broadcastInDim S50000x1 ![0] bcast_S50000_S50000x1_0 : (⟨S50000, .f32⟩ : BufTy).Contents (Elt F) → (⟨S50000x1, .f32⟩ : BufTy).Contents (Elt F)),
    unary main_v69 main_v70 (broadcastInDim S50000x128 ![0, 1] bcast_S50000x1_S50000x128_0_1 : (⟨S50000x1, .f32⟩ : BufTy).Contents (Elt F) → (⟨S50000x128, .f32⟩ : BufTy).Contents (Elt F)),
    binary main_v63 main_v70 main_v71 (Host.divf : (⟨S50000x128, .f32⟩ : BufTy).Contents (Elt F) → (⟨S50000x128, .f32⟩ : BufTy).Contents (Elt F) → (⟨S50000x128, .f32⟩ : BufTy).Contents (Elt F)),
    binary main_v71 main_arg8 main_v72 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg9 main_v73 (broadcastInDim S1x40 ![1] bcast_S40_S1x40_1 : (⟨S40, .f32⟩ : BufTy).Contents (Elt F) → (⟨S1x40, .f32⟩ : BufTy).Contents (Elt F)),
    unary main_v73 main_v74 (broadcastInDim S50000x40 ![0, 1] bcast_S1x40_S50000x40_0_1 : (⟨S1x40, .f32⟩ : BufTy).Contents (Elt F) → (⟨S50000x40, .f32⟩ : BufTy).Contents (Elt F)),
    binary main_v72 main_v74 main_v75 (addf : (⟨S50000x40, .f32⟩ : BufTy).Contents (Elt F) → (⟨S50000x40, .f32⟩ : BufTy).Contents (Elt F) → (⟨S50000x40, .f32⟩ : BufTy).Contents (Elt F)),
    binary main_v53 main_arg10 main_v76 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    binary main_v75 main_v76 main_v77 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x40, .f32⟩) main_call5_v0) (broadcastInDim S50000x40 ![] bcast_S_S50000x40),
    TRef.binary (TRef.of (T := ⟨S50000x40, .f32⟩) main_v77) (TRef.of (T := ⟨S50000x40, .f32⟩) main_call5_v0) (TRef.of (T := ⟨S50000x40, .f32⟩) main_v78) maximumf ]

/-- The log-softmax: operations 110 to 124. -/
abbrev l4 : List (HloOp τ sig (Elt F)) :=
  [ TRef.nullary (TRef.of (T := ⟨S_, .f32⟩) main_call6_cst) (constant S_ .f32 0xFF800000#32),
    TRef.binary (TRef.of (T := ⟨S50000x40, .f32⟩) main_v78) (TRef.of (T := ⟨S_, .f32⟩) main_call6_cst) (TRef.of (T := ⟨S50000, .f32⟩) main_call6_v0) (fun x v => Host.reduce FloatOps.maximumf x v reducesTo_S50000x40_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf,
    TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x40, .f32⟩) main_call6_v4) (broadcastInDim S50000x40 ![0, 1] bcast_S50000x1_S50000x40_0_1),
    TRef.binary (TRef.of (T := ⟨S50000x40, .f32⟩) main_v78) (TRef.of (T := ⟨S50000x40, .f32⟩) main_call6_v4) (TRef.of (T := ⟨S50000x40, .f32⟩) main_call6_v5) subf,
    TRef.unary (TRef.of (T := ⟨S50000x40, .f32⟩) main_call6_v5) (TRef.of (T := ⟨S50000x40, .f32⟩) main_call6_v6) Host.exp,
    TRef.nullary (TRef.of (T := ⟨S_, .f32⟩) main_call6_cst_1) (constant S_ .f32 0x00000000#32),
    TRef.binary (TRef.of (T := ⟨S50000x40, .f32⟩) main_call6_v6) (TRef.of (T := ⟨S_, .f32⟩) main_call6_cst_1) (TRef.of (T := ⟨S50000, .f32⟩) main_call6_v7) (fun x v => Host.reduceAdd x v reducesTo_S50000x40_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x40, .f32⟩) main_call6_v10) (broadcastInDim S50000x40 ![0, 1] bcast_S50000x1_S50000x40_0_1),
    TRef.binary (TRef.of (T := ⟨S50000x40, .f32⟩) main_call6_v5) (TRef.of (T := ⟨S50000x40, .f32⟩) main_call6_v10) (TRef.of (T := ⟨S50000x40, .f32⟩) main_v79) subf ]

set_option maxRecDepth 8192 in
/-- The program's line is the five stretches joined. -/
theorem ops_cut : (ops : List (HloOp τ sig (Elt F))) = l0 ++ l1 ++ l2 ++ l3 ++ l4 := rfl

/-! ## Transports at a called function's boundary

A called function's operation carries its operands from their buffers' types to the values' types and its result back.
Between two such operations the two transports cancel; at the boundary with a plain operation one is left over. At a
buffer whose type is the value's it is the identity, by computation, one buffer at a time. -/

theorem toBuf_main_v28 (v : (⟨S50000x128, .f32⟩ : BufTy).Contents (Elt Ideal)) :
    (TRef.of (sig := sig) (T := ⟨S50000x128, .f32⟩) main_v28).toBuf v = v := rfl
theorem ofBuf_main_v27 (v : (⟨S50000x128, .f32⟩ : BufTy).Contents (Elt Ideal)) :
    (TRef.of (sig := sig) (T := ⟨S50000x128, .f32⟩) main_v27).ofBuf v = v := rfl
theorem toBuf_main_v18 (v : (⟨S50000, .f32⟩ : BufTy).Contents (Elt Ideal)) :
    (TRef.of (sig := sig) (T := ⟨S50000, .f32⟩) main_v18).toBuf v = v := rfl
theorem ofBuf_main_cst_3 (v : (⟨S_, .f32⟩ : BufTy).Contents (Elt Ideal)) :
    (TRef.of (sig := sig) (T := ⟨S_, .f32⟩) main_cst_3).ofBuf v = v := rfl
theorem ofBuf_main_v17 (v : (⟨S50000, .f32⟩ : BufTy).Contents (Elt Ideal)) :
    (TRef.of (sig := sig) (T := ⟨S50000, .f32⟩) main_v17).ofBuf v = v := rfl
theorem toBuf_main_v53 (v : (⟨S50000x128, .f32⟩ : BufTy).Contents (Elt Ideal)) :
    (TRef.of (sig := sig) (T := ⟨S50000x128, .f32⟩) main_v53).toBuf v = v := rfl
theorem ofBuf_main_v52 (v : (⟨S50000x128, .f32⟩ : BufTy).Contents (Elt Ideal)) :
    (TRef.of (sig := sig) (T := ⟨S50000x128, .f32⟩) main_v52).ofBuf v = v := rfl
theorem toBuf_main_v43 (v : (⟨S50000, .f32⟩ : BufTy).Contents (Elt Ideal)) :
    (TRef.of (sig := sig) (T := ⟨S50000, .f32⟩) main_v43).toBuf v = v := rfl
theorem ofBuf_main_cst_9 (v : (⟨S_, .f32⟩ : BufTy).Contents (Elt Ideal)) :
    (TRef.of (sig := sig) (T := ⟨S_, .f32⟩) main_cst_9).ofBuf v = v := rfl
theorem ofBuf_main_v42 (v : (⟨S50000, .f32⟩ : BufTy).Contents (Elt Ideal)) :
    (TRef.of (sig := sig) (T := ⟨S50000, .f32⟩) main_v42).ofBuf v = v := rfl
theorem toBuf_main_v78 (v : (⟨S50000x40, .f32⟩ : BufTy).Contents (Elt Ideal)) :
    (TRef.of (sig := sig) (T := ⟨S50000x40, .f32⟩) main_v78).toBuf v = v := rfl
theorem ofBuf_main_v77 (v : (⟨S50000x40, .f32⟩ : BufTy).Contents (Elt Ideal)) :
    (TRef.of (sig := sig) (T := ⟨S50000x40, .f32⟩) main_v77).ofBuf v = v := rfl
theorem toBuf_main_v68 (v : (⟨S50000, .f32⟩ : BufTy).Contents (Elt Ideal)) :
    (TRef.of (sig := sig) (T := ⟨S50000, .f32⟩) main_v68).toBuf v = v := rfl
theorem ofBuf_main_cst_15 (v : (⟨S_, .f32⟩ : BufTy).Contents (Elt Ideal)) :
    (TRef.of (sig := sig) (T := ⟨S_, .f32⟩) main_cst_15).ofBuf v = v := rfl
theorem ofBuf_main_v67 (v : (⟨S50000, .f32⟩ : BufTy).Contents (Elt Ideal)) :
    (TRef.of (sig := sig) (T := ⟨S50000, .f32⟩) main_v67).ofBuf v = v := rfl
theorem toBuf_main_v79 (v : (⟨S50000x40, .f32⟩ : BufTy).Contents (Elt Ideal)) :
    (TRef.of (sig := sig) (T := ⟨S50000x40, .f32⟩) main_v79).toBuf v = v := rfl
theorem ofBuf_main_v78 (W : Valuation τ sig (Elt Ideal)) :
    (TRef.of (sig := sig) (T := ⟨S50000x40, .f32⟩) main_v78).ofBuf (W (Proc.devRef .tc main_v78)) = W (Proc.devRef .tc main_v78) := rfl

/-! ## What each stretch leaves, from arbitrary incoming contents -/

set_option maxRecDepth 8192 in
/-- The slicing leaves the sources in their buffer. -/
theorem l0_src (W : Valuation τ sig (Elt Ideal)) :
    after (l0 (F := Ideal)) W (Proc.devRef .tc main_v1) = src (W (Proc.devRef .tc main_arg1)) := by
  unfold l0
  after_results_simp
  rfl

set_option maxRecDepth 8192 in
/-- The slicing leaves the destinations in their buffer. -/
theorem l0_dst (W : Valuation τ sig (Elt Ideal)) :
    after (l0 (F := Ideal)) W (Proc.devRef .tc main_v3) = dst (W (Proc.devRef .tc main_arg1)) := by
  unfold l0
  after_results_simp
  rfl

set_option maxRecDepth 8192 in
set_option maxHeartbeats 4000000 in
/-- The first layer's stretch, from contents holding the sources and destinations of an edge array `e`, leaves the layer of the feature argument. -/
theorem stretch1 (W : Valuation τ sig (Elt Ideal)) (e : (⟨S2x800000, .i32⟩ : BufTy).Contents (Elt Ideal))
    (hs : W (Proc.devRef .tc main_v1) = src e) (hd : W (Proc.devRef .tc main_v3) = dst e) :
    after (l1 (F := Ideal)) W (Proc.devRef .tc main_v28)
      = refLayer e (W (Proc.devRef .tc main_arg0)) (W (Proc.devRef .tc main_arg2)) (W (Proc.devRef .tc main_arg3)) (W (Proc.devRef .tc main_arg4)) := by
  unfold l1
  after_results_simp
  simp only [Cert.Lib.TypedRefCasts.ofBuf_toBuf]
  rw [hs, hd]
  rw [toBuf_main_v28, ofBuf_main_v27, toBuf_main_v18, ofBuf_main_cst_3, ofBuf_main_v17, id_eq]
  unfold refLayer agg degv wrapped
  with_reducible rfl

set_option maxRecDepth 8192 in
set_option maxHeartbeats 4000000 in
/-- The second layer's stretch, likewise, leaves the layer of the first layer's buffer. -/
theorem stretch2 (W : Valuation τ sig (Elt Ideal)) (e : (⟨S2x800000, .i32⟩ : BufTy).Contents (Elt Ideal))
    (hs : W (Proc.devRef .tc main_v1) = src e) (hd : W (Proc.devRef .tc main_v3) = dst e) :
    after (l2 (F := Ideal)) W (Proc.devRef .tc main_v53)
      = refLayer e (W (Proc.devRef .tc main_v28)) (W (Proc.devRef .tc main_arg5)) (W (Proc.devRef .tc main_arg6)) (W (Proc.devRef .tc main_arg7)) := by
  unfold l2
  after_results_simp
  simp only [Cert.Lib.TypedRefCasts.ofBuf_toBuf]
  rw [hs, hd]
  rw [toBuf_main_v53, ofBuf_main_v52, toBuf_main_v43, ofBuf_main_cst_9, ofBuf_main_v42, id_eq]
  unfold refLayer agg degv wrapped
  with_reducible rfl

set_option maxRecDepth 8192 in
set_option maxHeartbeats 4000000 in
/-- The third layer's stretch, likewise, leaves the 40-column layer of the second layer's buffer. -/
theorem stretch3 (W : Valuation τ sig (Elt Ideal)) (e : (⟨S2x800000, .i32⟩ : BufTy).Contents (Elt Ideal))
    (hs : W (Proc.devRef .tc main_v1) = src e) (hd : W (Proc.devRef .tc main_v3) = dst e) :
    after (l3 (F := Ideal)) W (Proc.devRef .tc main_v78)
      = refLayer40 e (W (Proc.devRef .tc main_v53)) (W (Proc.devRef .tc main_arg8)) (W (Proc.devRef .tc main_arg9)) (W (Proc.devRef .tc main_arg10)) := by
  unfold l3
  after_results_simp
  simp only [Cert.Lib.TypedRefCasts.ofBuf_toBuf]
  rw [hs, hd]
  rw [toBuf_main_v78, ofBuf_main_v77, toBuf_main_v68, ofBuf_main_cst_15, ofBuf_main_v67, id_eq]
  unfold refLayer40 agg degv wrapped
  with_reducible rfl

set_option maxRecDepth 8192 in
set_option maxHeartbeats 4000000 in
/-- The last stretch leaves the log-softmax of the third layer's buffer. -/
theorem stretch4 (W : Valuation τ sig (Elt Ideal)) :
    after (l4 (F := Ideal)) W (Proc.devRef .tc main_v79) = lsmOps (W (Proc.devRef .tc main_v78)) := by
  unfold l4
  after_results_simp
  simp only [Cert.Lib.TypedRefCasts.ofBuf_toBuf]
  rw [toBuf_main_v79, ofBuf_main_v78]
  unfold lsmOps shifted rowMaxV
  with_reducible rfl

/-! ## The buffers a stretch does not write -/

theorem l0_keeps_arg0 (W : Valuation τ sig (Elt Ideal)) :
    after (l0 (F := Ideal)) W (Proc.devRef .tc main_arg0) = W (Proc.devRef .tc main_arg0) :=
  Cert.Lib.AfterAppend.after_kept (l0 (F := Ideal)) W main_arg0 (by unfold l0; not_written)
theorem l0_keeps_arg2 (W : Valuation τ sig (Elt Ideal)) :
    after (l0 (F := Ideal)) W (Proc.devRef .tc main_arg2) = W (Proc.devRef .tc main_arg2) :=
  Cert.Lib.AfterAppend.after_kept (l0 (F := Ideal)) W main_arg2 (by unfold l0; not_written)
theorem l0_keeps_arg3 (W : Valuation τ sig (Elt Ideal)) :
    after (l0 (F := Ideal)) W (Proc.devRef .tc main_arg3) = W (Proc.devRef .tc main_arg3) :=
  Cert.Lib.AfterAppend.after_kept (l0 (F := Ideal)) W main_arg3 (by unfold l0; not_written)
theorem l0_keeps_arg4 (W : Valuation τ sig (Elt Ideal)) :
    after (l0 (F := Ideal)) W (Proc.devRef .tc main_arg4) = W (Proc.devRef .tc main_arg4) :=
  Cert.Lib.AfterAppend.after_kept (l0 (F := Ideal)) W main_arg4 (by unfold l0; not_written)
theorem l0_keeps_arg5 (W : Valuation τ sig (Elt Ideal)) :
    after (l0 (F := Ideal)) W (Proc.devRef .tc main_arg5) = W (Proc.devRef .tc main_arg5) :=
  Cert.Lib.AfterAppend.after_kept (l0 (F := Ideal)) W main_arg5 (by unfold l0; not_written)
theorem l0_keeps_arg6 (W : Valuation τ sig (Elt Ideal)) :
    after (l0 (F := Ideal)) W (Proc.devRef .tc main_arg6) = W (Proc.devRef .tc main_arg6) :=
  Cert.Lib.AfterAppend.after_kept (l0 (F := Ideal)) W main_arg6 (by unfold l0; not_written)
theorem l0_keeps_arg7 (W : Valuation τ sig (Elt Ideal)) :
    after (l0 (F := Ideal)) W (Proc.devRef .tc main_arg7) = W (Proc.devRef .tc main_arg7) :=
  Cert.Lib.AfterAppend.after_kept (l0 (F := Ideal)) W main_arg7 (by unfold l0; not_written)
theorem l0_keeps_arg8 (W : Valuation τ sig (Elt Ideal)) :
    after (l0 (F := Ideal)) W (Proc.devRef .tc main_arg8) = W (Proc.devRef .tc main_arg8) :=
  Cert.Lib.AfterAppend.after_kept (l0 (F := Ideal)) W main_arg8 (by unfold l0; not_written)
theorem l0_keeps_arg9 (W : Valuation τ sig (Elt Ideal)) :
    after (l0 (F := Ideal)) W (Proc.devRef .tc main_arg9) = W (Proc.devRef .tc main_arg9) :=
  Cert.Lib.AfterAppend.after_kept (l0 (F := Ideal)) W main_arg9 (by unfold l0; not_written)
theorem l0_keeps_arg10 (W : Valuation τ sig (Elt Ideal)) :
    after (l0 (F := Ideal)) W (Proc.devRef .tc main_arg10) = W (Proc.devRef .tc main_arg10) :=
  Cert.Lib.AfterAppend.after_kept (l0 (F := Ideal)) W main_arg10 (by unfold l0; not_written)

theorem l1_keeps_v1 (W : Valuation τ sig (Elt Ideal)) :
    after (l1 (F := Ideal)) W (Proc.devRef .tc main_v1) = W (Proc.devRef .tc main_v1) :=
  Cert.Lib.AfterAppend.after_kept (l1 (F := Ideal)) W main_v1 (by unfold l1; not_written)
theorem l1_keeps_v3 (W : Valuation τ sig (Elt Ideal)) :
    after (l1 (F := Ideal)) W (Proc.devRef .tc main_v3) = W (Proc.devRef .tc main_v3) :=
  Cert.Lib.AfterAppend.after_kept (l1 (F := Ideal)) W main_v3 (by unfold l1; not_written)
theorem l1_keeps_arg5 (W : Valuation τ sig (Elt Ideal)) :
    after (l1 (F := Ideal)) W (Proc.devRef .tc main_arg5) = W (Proc.devRef .tc main_arg5) :=
  Cert.Lib.AfterAppend.after_kept (l1 (F := Ideal)) W main_arg5 (by unfold l1; not_written)
theorem l1_keeps_arg6 (W : Valuation τ sig (Elt Ideal)) :
    after (l1 (F := Ideal)) W (Proc.devRef .tc main_arg6) = W (Proc.devRef .tc main_arg6) :=
  Cert.Lib.AfterAppend.after_kept (l1 (F := Ideal)) W main_arg6 (by unfold l1; not_written)
theorem l1_keeps_arg7 (W : Valuation τ sig (Elt Ideal)) :
    after (l1 (F := Ideal)) W (Proc.devRef .tc main_arg7) = W (Proc.devRef .tc main_arg7) :=
  Cert.Lib.AfterAppend.after_kept (l1 (F := Ideal)) W main_arg7 (by unfold l1; not_written)
theorem l1_keeps_arg8 (W : Valuation τ sig (Elt Ideal)) :
    after (l1 (F := Ideal)) W (Proc.devRef .tc main_arg8) = W (Proc.devRef .tc main_arg8) :=
  Cert.Lib.AfterAppend.after_kept (l1 (F := Ideal)) W main_arg8 (by unfold l1; not_written)
theorem l1_keeps_arg9 (W : Valuation τ sig (Elt Ideal)) :
    after (l1 (F := Ideal)) W (Proc.devRef .tc main_arg9) = W (Proc.devRef .tc main_arg9) :=
  Cert.Lib.AfterAppend.after_kept (l1 (F := Ideal)) W main_arg9 (by unfold l1; not_written)
theorem l1_keeps_arg10 (W : Valuation τ sig (Elt Ideal)) :
    after (l1 (F := Ideal)) W (Proc.devRef .tc main_arg10) = W (Proc.devRef .tc main_arg10) :=
  Cert.Lib.AfterAppend.after_kept (l1 (F := Ideal)) W main_arg10 (by unfold l1; not_written)

theorem l2_keeps_v1 (W : Valuation τ sig (Elt Ideal)) :
    after (l2 (F := Ideal)) W (Proc.devRef .tc main_v1) = W (Proc.devRef .tc main_v1) :=
  Cert.Lib.AfterAppend.after_kept (l2 (F := Ideal)) W main_v1 (by unfold l2; not_written)
theorem l2_keeps_v3 (W : Valuation τ sig (Elt Ideal)) :
    after (l2 (F := Ideal)) W (Proc.devRef .tc main_v3) = W (Proc.devRef .tc main_v3) :=
  Cert.Lib.AfterAppend.after_kept (l2 (F := Ideal)) W main_v3 (by unfold l2; not_written)
theorem l2_keeps_arg8 (W : Valuation τ sig (Elt Ideal)) :
    after (l2 (F := Ideal)) W (Proc.devRef .tc main_arg8) = W (Proc.devRef .tc main_arg8) :=
  Cert.Lib.AfterAppend.after_kept (l2 (F := Ideal)) W main_arg8 (by unfold l2; not_written)
theorem l2_keeps_arg9 (W : Valuation τ sig (Elt Ideal)) :
    after (l2 (F := Ideal)) W (Proc.devRef .tc main_arg9) = W (Proc.devRef .tc main_arg9) :=
  Cert.Lib.AfterAppend.after_kept (l2 (F := Ideal)) W main_arg9 (by unfold l2; not_written)
theorem l2_keeps_arg10 (W : Valuation τ sig (Elt Ideal)) :
    after (l2 (F := Ideal)) W (Proc.devRef .tc main_arg10) = W (Proc.devRef .tc main_arg10) :=
  Cert.Lib.AfterAppend.after_kept (l2 (F := Ideal)) W main_arg10 (by unfold l2; not_written)

/-! ## The whole line -/

/-- The last layer with its log-softmax, as the two terms the last two stretches leave. -/
theorem refLast_def (e : (⟨S2x800000, .i32⟩ : BufTy).Contents (Elt Ideal)) (h : S50000x128.Idx → EReal) (Wl : S128x40.Idx → EReal)
    (b : S40.Idx → EReal) (Wr : S128x40.Idx → EReal) : lsmOps (refLayer40 e h Wl b Wr) = refLast e h Wl b Wr := rfl

/-- From any contents, the program's line leaves in its result buffer the network of the shared mathematics at the
    contents of the argument buffers. -/
theorem out_eq (V : Valuation τ sig (Elt Ideal)) :
    after (ops (F := Ideal)) V (Proc.devRef .tc main_v79)
      = Cert.Sage.net (agg (V (Proc.devRef .tc main_arg1))) (deg (V (Proc.devRef .tc main_arg1))) (V (Proc.devRef .tc main_arg0))
          (V (Proc.devRef .tc main_arg2)) (V (Proc.devRef .tc main_arg4)) (fun q => V (Proc.devRef .tc main_arg3) (ix1 q))
          (V (Proc.devRef .tc main_arg5)) (V (Proc.devRef .tc main_arg7)) (fun q => V (Proc.devRef .tc main_arg6) (ix1 q))
          (V (Proc.devRef .tc main_arg8)) (V (Proc.devRef .tc main_arg10)) (fun q => V (Proc.devRef .tc main_arg9) (ix1 q)) := by
  have hs0 := l0_src V
  have hd0 := l0_dst V
  have hs1 := (l1_keeps_v1 (after l0 V)).trans hs0
  have hd1 := (l1_keeps_v3 (after l0 V)).trans hd0
  have hs2 := (l2_keeps_v1 (after l1 (after l0 V))).trans hs1
  have hd2 := (l2_keeps_v3 (after l1 (after l0 V))).trans hd1
  rw [ops_cut, Cert.Lib.AfterAppend.after_append, Cert.Lib.AfterAppend.after_append, Cert.Lib.AfterAppend.after_append,
    Cert.Lib.AfterAppend.after_append, stretch4, stretch3 _ _ hs2 hd2, stretch2 _ _ hs1 hd1, stretch1 _ _ hs0 hd0,
    l2_keeps_arg8, l2_keeps_arg9, l2_keeps_arg10,
    l1_keeps_arg5, l1_keeps_arg6, l1_keeps_arg7, l1_keeps_arg8, l1_keeps_arg9, l1_keeps_arg10,
    l0_keeps_arg0, l0_keeps_arg2, l0_keeps_arg3, l0_keeps_arg4, l0_keeps_arg5, l0_keeps_arg6, l0_keeps_arg7, l0_keeps_arg8, l0_keeps_arg9, l0_keeps_arg10]
  rw [refLast_def, refLast_eq, refLayer_eq, refLayer_eq]
  unfold Cert.Sage.net
  with_reducible rfl

/-! ## The run -/

set_option maxRecDepth 8192 in
set_option maxHeartbeats 49600000 in
/-- On every device, from any memory with zero counters: every weakly fair execution of the reference program
    terminates with its result buffer at the network of the shared mathematics of the arguments' launch contents, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v79)
        = Cert.Sage.net (agg (m ((c.tc : Thread nD τ).loc main_arg1))) (deg (m ((c.tc : Thread nD τ).loc main_arg1)))
            (m ((c.tc : Thread nD τ).loc main_arg0))
            (m ((c.tc : Thread nD τ).loc main_arg2)) (m ((c.tc : Thread nD τ).loc main_arg4))
            (fun q => m ((c.tc : Thread nD τ).loc main_arg3) (ix1 q))
            (m ((c.tc : Thread nD τ).loc main_arg5)) (m ((c.tc : Thread nD τ).loc main_arg7))
            (fun q => m ((c.tc : Thread nD τ).loc main_arg6) (ix1 q))
            (m ((c.tc : Thread nD τ).loc main_arg8)) (m ((c.tc : Thread nD τ).loc main_arg10))
            (fun q => m ((c.tc : Thread nD τ).loc main_arg9) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v79).trans (out_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.Hand

end
-- ==== Proof.lean ====
/-
  A three-layer mean-aggregation graph network on 50000 nodes and 800000 edges: the kernel program against its reference,
  equal on the extended reals.

  Both programs gather the source rows of the current features along the edges and add them into the destination rows (the
  message sum), divide by the destination's degree clipped below at one (the neighbour mean), and apply
  `max (mean · Wl + x · Wr + b) 0`; after the third layer, a row-wise log-softmax. They differ in three ways, none of which
  changes a value on the extended reals. The kernel program multiplies the message sum by the reciprocal `1 / max (1, deg)`
  where the reference divides by `max (1, deg)`: the divisor is at least one, hence nonzero, and then both are the product
  with its inverse, for every numerator. The kernel program adds the bias last, the reference before the own-row product:
  addition is commutative and associative. And the kernel program computes each layer in ten grid points of 5000 rows per launch,
  rounding the matrix operands to bf16 on the way in: rounding is the identity on the extended reals, a layer entry reads
  only its own row, and the ten row blocks cover the result. No step uses that the inputs are finite.

  The kernel side: every buffer's contents at the end of the run, folded through the three launches and the host
  operations between them, and read back to the argument arrays (KernelRun, Layer0–2, Prefix, Between, KernelValue). The
  reference side: its operations folded one layer at a time and each layer read index by index (RefOps, RefLayers,
  RefRun). Both end at the one function `Cert.Sage.net` of the arguments (Spec).
-/
import proofs.«120409_j69363721831026_1_alg».proof.Defs
import proofs.«120409_j69363721831026_1_alg».proof.Proof.Gen.Kernel
import proofs.«120409_j69363721831026_1_alg».proof.Proof.Gen.Kernel.Frame
import proofs.«120409_j69363721831026_1_alg».proof.Proof.Gen.KernelIdeal
import proofs.«120409_j69363721831026_1_alg».proof.Proof.Gen.KernelIdeal.Frame
import proofs.«120409_j69363721831026_1_alg».proof.Proof.Gen.ReferenceIdeal
import proofs.«120409_j69363721831026_1_alg».proof.Proof.Gen.Pre_finite_inputs
import proofs.«120409_j69363721831026_1_alg».proof.Proof.KernelRun
import proofs.«120409_j69363721831026_1_alg».proof.Proof.KernelValue
import proofs.«120409_j69363721831026_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The two programs' message sums are one function: the same operations over the same dimension records. -/
theorem agg_eq : Cert.ReferenceIdeal.Hand.agg = Cert.KernelIdeal.Host.agg := rfl
/-- The two programs' clipped degrees are one function. -/
theorem deg_eq : Cert.ReferenceIdeal.Hand.deg = Cert.KernelIdeal.Host.deg := rfl

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- Both runs end with the result buffer at the network of the argument arrays, which agree. -/
theorem algebraic : Cert.algebraic_KernelIdeal_ReferenceIdeal := by
  intro m ρ m' ρ' _ hagree
  refine ⟨fun c => Cert.KernelIdeal.Gen.W8 m ρ c (Proc.devRef .tc Cert.KernelIdeal.main_v53), Cert.KernelIdeal.Whole.run_named m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7, a8, a9, a10⟩ := hagree c
  rw [a0, a1, a2, a3, a4, a5, a6, a7, a8, a9, a10, agg_eq, deg_eq]
  exact (Cert.KernelIdeal.Whole.value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
